-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x2048x1024 .f32) (main_arg1 : FVec F S3072x1024 .f32) (main_arg2 : FVec F S1024x1024 .f32) (main_arg3 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x2048x1024 : Shape := ⟨3, ![4, 2048, 1024]⟩
abbrev S3072x1024 : Shape := ⟨2, ![3072, 1024]⟩
abbrev S1024x1024 : Shape := ⟨2, ![1024, 1024]⟩
abbrev S1024 : Shape := ⟨1, ![1024]⟩
abbrev S8192x1024 : Shape := ⟨2, ![8192, 1024]⟩
abbrev S8192x3072 : Shape := ⟨2, ![8192, 3072]⟩
abbrev S512x1024 : Shape := ⟨2, ![512, 1024]⟩
abbrev S512x3072 : Shape := ⟨2, ![512, 3072]⟩
abbrev S4x2048x16x192 : Shape := ⟨4, ![4, 2048, 16, 192]⟩
abbrev S4x2048x16x64 : Shape := ⟨4, ![4, 2048, 16, 64]⟩
abbrev S4x16x2048x64 : Shape := ⟨4, ![4, 16, 2048, 64]⟩
abbrev S64x2048x64 : Shape := ⟨3, ![64, 2048, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩

abbrev nBuf : Space → Nat
  | .hbm => 29
  | .vmem => 19
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S8192x1024, .f32⟩
  | .hbm, ⟨5, _⟩ => ⟨S8192x1024, .bf16⟩
  | .hbm, ⟨6, _⟩ => ⟨S3072x1024, .bf16⟩
  | .hbm, ⟨7, _⟩ => ⟨S8192x3072, .f32⟩
  | .hbm, ⟨8, _⟩ => ⟨S4x2048x16x192, .f32⟩
  | .hbm, ⟨9, _⟩ => ⟨S4x2048x16x64, .f32⟩
  | .hbm, ⟨10, _⟩ => ⟨S4x2048x16x64, .f32⟩
  | .hbm, ⟨11, _⟩ => ⟨S4x2048x16x64, .f32⟩
  | .hbm, ⟨12, _⟩ => ⟨S4x16x2048x64, .f32⟩
  | .hbm, ⟨13, _⟩ => ⟨S64x2048x64, .f32⟩
  | .hbm, ⟨14, _⟩ => ⟨S64x2048x64, .bf16⟩
  | .hbm, ⟨15, _⟩ => ⟨S4x16x2048x64, .f32⟩
  | .hbm, ⟨16, _⟩ => ⟨S64x2048x64, .f32⟩
  | .hbm, ⟨17, _⟩ => ⟨S64x2048x64, .bf16⟩
  | .hbm, ⟨18, _⟩ => ⟨S4x16x2048x64, .f32⟩
  | .hbm, ⟨19, _⟩ => ⟨S64x2048x64, .f32⟩
  | .hbm, ⟨20, _⟩ => ⟨S64x2048x64, .bf16⟩
  | .hbm, ⟨21, _⟩ => ⟨S64x2048x64, .f32⟩
  | .hbm, ⟨22, _⟩ => ⟨S4x16x2048x64, .f32⟩
  | .hbm, ⟨23, _⟩ => ⟨S4x2048x16x64, .f32⟩
  | .hbm, ⟨24, _⟩ => ⟨S8192x1024, .f32⟩
  | .hbm, ⟨25, _⟩ => ⟨S8192x1024, .bf16⟩
  | .hbm, ⟨26, _⟩ => ⟨S1024x1024, .bf16⟩
  | .hbm, ⟨27, _⟩ => ⟨S8192x1024, .f32⟩
  | .hbm, ⟨28, _⟩ => ⟨S4x2048x1024, .f32⟩
  | .local _ .vmem, ⟨0, _⟩ => ⟨S512x1024, .bf16⟩
  | .local _ .vmem, ⟨1, _⟩ => ⟨S512x1024, .bf16⟩
  | .local _ .vmem, ⟨2, _⟩ => ⟨S3072x1024, .bf16⟩
  | .local _ .vmem, ⟨3, _⟩ => ⟨S512x3072, .f32⟩
  | .local _ .vmem, ⟨4, _⟩ => ⟨S512x3072, .f32⟩
  | .local _ .vmem, ⟨5, _⟩ => ⟨S1x512x64, .bf16⟩
  | .local _ .vmem, ⟨6, _⟩ => ⟨S1x512x64, .bf16⟩
  | .local _ .vmem, ⟨7, _⟩ => ⟨S1x2048x64, .bf16⟩
  | .local _ .vmem, ⟨8, _⟩ => ⟨S1x2048x64, .bf16⟩
  | .local _ .vmem, ⟨9, _⟩ => ⟨S1x2048x64, .bf16⟩
  | .local _ .vmem, ⟨10, _⟩ => ⟨S1x2048x64, .bf16⟩
  | .local _ .vmem, ⟨11, _⟩ => ⟨S1x512x64, .f32⟩
  | .local _ .vmem, ⟨12, _⟩ => ⟨S1x512x64, .f32⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1024, .f32⟩
  | .local _ .vmem, ⟨17, _⟩ => ⟨S512x1024, .f32⟩
  | .local _ .vmem, ⟨18, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![64, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4x2048x1024_S8192x1024 : S4x2048x1024.ShapeCasts S8192x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S512x3072_S512x3072_0_0 : ∀ a, (![0, 0] : Fin 2 → Nat) a + S512x3072.size a ≤ S512x3072.size a
  h_S512x3072 : 0 < S512x3072.numel
  shapeCasts_S8192x3072_S4x2048x16x192 : S8192x3072.ShapeCasts S4x2048x16x192
  slices_S4x2048x16x192_S4x2048x16x64_0_0_0_0 : S4x2048x16x192.Slices ![0, 0, 0, 0] S4x2048x16x64
  slices_S4x2048x16x192_S4x2048x16x64_0_0_0_64 : S4x2048x16x192.Slices ![0, 0, 0, 64] S4x2048x16x64
  slices_S4x2048x16x192_S4x2048x16x64_0_0_0_128 : S4x2048x16x192.Slices ![0, 0, 0, 128] S4x2048x16x64
  transposes_S4x2048x16x64_S4x16x2048x64_0_2_1_3 : S4x2048x16x64.Transposes [0, 2, 1, 3] S4x16x2048x64
  shapeCasts_S4x16x2048x64_S64x2048x64 : S4x16x2048x64.ShapeCasts S64x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  iota_S512x2048_d0_w32 : S512x2048.Iotas .tc 32 [0]
  iota_S512x2048_d1_w32 : S512x2048.Iotas .tc 32 [1]
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  shapeCasts_S64x2048x64_S4x16x2048x64 : S64x2048x64.ShapeCasts S4x16x2048x64
  transposes_S4x16x2048x64_S4x2048x16x64_0_2_1_3 : S4x16x2048x64.Transposes [0, 2, 1, 3] S4x2048x16x64
  shapeCasts_S4x2048x16x64_S8192x1024 : S4x2048x16x64.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S8192x1024_S4x2048x1024 : S8192x1024.ShapeCasts S4x2048x1024
  dot_S512x1024_S3072x1024_S512x3072_1_1_0_0_n_n_wf : DotDims.WF S512x1024 S3072x1024 S512x3072 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S8192x3072.size a
  hwx0_2 : ∀ i : grid0.Coords, EltTy.bits .f32 = 32 ∨ (Rect.block (s := S8192x3072) S512x3072.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S64x2048x64.size a
  hwx1_0 : ∀ i : grid1.Coords, EltTy.bits .bf16 = 32 ∨ (Rect.block (s := S64x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S64x2048x64.size a
  hwx1_1 : ∀ i : grid1.Coords, EltTy.bits .bf16 = 32 ∨ (Rect.block (s := S64x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S64x2048x64.size a
  hwx1_2 : ∀ i : grid1.Coords, EltTy.bits .bf16 = 32 ∨ (Rect.block (s := S64x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S64x2048x64.size a
  hwx1_3 : ∀ i : grid1.Coords, EltTy.bits .f32 = 32 ∨ (Rect.block (s := S64x2048x64) S1x512x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v21) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S1024x1024 : Shape := ⟨2, ![1024, 1024]⟩
abbrev S1024 : Shape := ⟨1, ![1024]⟩
abbrev S4x2048x3072 : Shape := ⟨3, ![4, 2048, 3072]⟩
abbrev S4x2048x16x192 : Shape := ⟨4, ![4, 2048, 16, 192]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S2048x2048 : Shape := ⟨2, ![2048, 2048]⟩
abbrev S4x16x2048 : Shape := ⟨3, ![4, 16, 2048]⟩
abbrev S4x16x2048x1 : Shape := ⟨4, ![4, 16, 2048, 1]⟩
abbrev S1x1x1024 : Shape := ⟨3, ![1, 1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S4x2048x3072, .f32⟩
  | .hbm, ⟨5, _⟩ => ⟨S4x2048x16x192, .f32⟩
  | .hbm, ⟨6, _⟩ => ⟨S4x2048x16x64, .f32⟩
  | .hbm, ⟨7, _⟩ => ⟨S4x2048x16x64, .f32⟩
  | .hbm, ⟨8, _⟩ => ⟨S4x2048x16x64, .f32⟩
  | .hbm, ⟨9, _⟩ => ⟨S4x16x2048x64, .f32⟩
  | .hbm, ⟨10, _⟩ => ⟨S4x16x2048x64, .f32⟩
  | .hbm, ⟨11, _⟩ => ⟨S4x16x2048x64, .f32⟩
  | .hbm, ⟨12, _⟩ => ⟨S4x16x2048x2048, .f32⟩
  | .hbm, ⟨13, _⟩ => ⟨S_, .f32⟩
  | .hbm, ⟨14, _⟩ => ⟨S4x16x2048x2048, .f32⟩
  | .hbm, ⟨15, _⟩ => ⟨S4x16x2048x2048, .f32⟩
  | .hbm, ⟨16, _⟩ => ⟨S_, .i1⟩
  | .hbm, ⟨17, _⟩ => ⟨S2048x2048, .i1⟩
  | .hbm, ⟨18, _⟩ => ⟨S2048x2048, .i32⟩
  | .hbm, ⟨19, _⟩ => ⟨S_, .i32⟩
  | .hbm, ⟨20, _⟩ => ⟨S2048x2048, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S_, .i1⟩
  | .hbm, ⟨25, _⟩ => ⟨S2048x2048, .i1⟩
  | .hbm, ⟨26, _⟩ => ⟨S2048x2048, .i1⟩
  | .hbm, ⟨27, _⟩ => ⟨S_, .f32⟩
  | .hbm, ⟨28, _⟩ => ⟨S_, .f32⟩
  | .hbm, ⟨29, _⟩ => ⟨S4x16x2048x2048, .i1⟩
  | .hbm, ⟨30, _⟩ => ⟨S4x16x2048x2048, .f32⟩
  | .hbm, ⟨31, _⟩ => ⟨S4x16x2048x2048, .f32⟩
  | .hbm, ⟨32, _⟩ => ⟨S_, .f32⟩
  | .hbm, ⟨33, _⟩ => ⟨S4x16x2048, .f32⟩
  | .hbm, ⟨34, _⟩ => ⟨S_, .f32⟩
  | .hbm, ⟨35, _⟩ => ⟨S4x16x2048, .f32⟩
  | .hbm, ⟨36, _⟩ => ⟨S4x16x2048, .f32⟩
  | .hbm, ⟨37, _⟩ => ⟨S4x16x2048x1, .f32⟩
  | .hbm, ⟨38, _⟩ => ⟨S4x16x2048x2048, .f32⟩
  | .hbm, ⟨39, _⟩ => ⟨S4x16x2048x2048, .f32⟩
  | .hbm, ⟨40, _⟩ => ⟨S4x16x2048x2048, .f32⟩
  | .hbm, ⟨41, _⟩ => ⟨S_, .f32⟩
  | .hbm, ⟨42, _⟩ => ⟨S4x16x2048, .f32⟩
  | .hbm, ⟨43, _⟩ => ⟨S4x16x2048x1, .f32⟩
  | .hbm, ⟨44, _⟩ => ⟨S4x16x2048x2048, .f32⟩
  | .hbm, ⟨45, _⟩ => ⟨S4x16x2048x2048, .f32⟩
  | .hbm, ⟨46, _⟩ => ⟨S4x16x2048x64, .f32⟩
  | .hbm, ⟨47, _⟩ => ⟨S4x2048x16x64, .f32⟩
  | .hbm, ⟨48, _⟩ => ⟨S4x2048x1024, .f32⟩
  | .hbm, ⟨49, _⟩ => ⟨S4x2048x1024, .f32⟩
  | .hbm, ⟨50, _⟩ => ⟨S1x1x1024, .f32⟩
  | .hbm, ⟨51, _⟩ => ⟨S4x2048x1024, .f32⟩
  | .hbm, ⟨52, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_0 : Ref sig .tc := ⟨.hbm, 24, rfl⟩
abbrev main_call0_v5 : Ref sig .tc := ⟨.hbm, 25, rfl⟩
abbrev main_v12 : Ref sig .tc := ⟨.hbm, 26, rfl⟩
abbrev main_cst_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩

abbrev nD : Nat := 1
abbrev τ : Topo := Topo.v7x

variable {F : FTy → Type} [FloatOps F]

class Facts₀ : Prop where
  shapeCasts_S4x2048x3072_S4x2048x16x192 : S4x2048x3072.ShapeCasts S4x2048x16x192
  slices_S4x2048x16x192_S4x2048x16x64_0_0_0_0 : S4x2048x16x192.Slices ![0, 0, 0, 0] S4x2048x16x64
  slices_S4x2048x16x192_S4x2048x16x64_0_0_0_64 : S4x2048x16x192.Slices ![0, 0, 0, 64] S4x2048x16x64
  slices_S4x2048x16x192_S4x2048x16x64_0_0_0_128 : S4x2048x16x192.Slices ![0, 0, 0, 128] S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  bcast_S_S2048x2048 : S_.BroadcastsInDim S2048x2048 (![] : Fin 0 → Fin S2048x2048.rank)
  bcast_S2048x2048_S4x16x2048x2048_2_3 : S2048x2048.BroadcastsInDim S4x16x2048x2048 (![2, 3] : Fin 2 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.KRun.lean ====
/-
  The run of the idealized kernel program with its result named.

  The program is seven segments — host operations, the projection kernel, host operations, the attention
  kernel, host operations, the output kernel, a last reshape — and the contents of every buffer at each
  boundary are a fold from the launch memory (`W0` … `W7`). Every weakly fair execution terminates without a
  fault in a state whose unscoped buffers hold the last boundary's contents; so the result buffer holds
  `W7` at its reference, and the four arguments hold what they were launched with.
-/
import proofs.«167086_j40114994544681_1_alg».proof.Proof.FrameKernelIdeal

set_option maxRecDepth 16384

noncomputable section

namespace Cert.KernelIdeal.KRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any launch memory with zero counters every weakly fair execution of the program terminates, nothing
    faulting, with the result buffer at the last boundary's contents and the argument arrays as launched. -/
theorem run_main : θ_run defs (onTc (τ := τ) (main (F := F))) ⟨m, fun _ => 0, ρ⟩ (fun r => ∀ c : Dev nD,
      r.2.mem ((c.tc : Thread nD τ).loc main_v24) = W7 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v24 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩)

end Cert.KernelIdeal.KRun

end
-- ==== Proof.Spec.lean ====
/-
  The mathematics both programs compute, stated once over plain index types.

  Multi-head causal self-attention on x : [4, 2048, 1024] with 16 heads of width 64:
    qkv(b,t,d)   = ∑ c, x(b,t,c) · Wqkv(d,c)                                  (d < 3072)
  head h takes the columns h·192 + e (queries), h·192 + 64 + e (keys), h·192 + 128 + e (values), e < 64;
  within one head, for a query row q and a key row k,
    score(q,k)   = (∑ e, Q(q,e) · K(k,e)) · 1/8
    masked(q,k)  = score(q,k) if k ≤ q, and -∞ otherwise                      (the causal mask)
    rowMax(q)    = max(-∞, max over k of masked(q,k))
    expo(q,k)    = exp(masked(q,k) − rowMax(q))
    prob(q,k)    = expo(q,k) / (∑ k', expo(q,k'))                             (the softmax of the row)
    attn(q,e)    = ∑ k, prob(q,k) · V(k,e)
  the heads are laid side by side again, merged(b,t,c) = attn of head c / 64 at (t, c mod 64), and
    out(b,t,d)   = (∑ c, merged(b,t,c) · Wproj(d,c)) + bproj(d).
  Everything is over the extended reals; the two float words that appear (1/8 and the maximum's
  starting value -∞) are kept as the words themselves, the same on both sides.
-/
import Idealize.ShloMosaic.PureOps.Ideal
import Idealize.ShloMosaic.Lib.ValueIdx

noncomputable section

open scoped BigOperators

namespace Cert.Spec

open Idealize.ShloMosaic Idealize.ShloMosaic.ValueIdx

/-- A buffer's contents read as a plain array of extended reals: the identity, written so that an entry has
    the type `EReal` on its face (a buffer's element type is only equal to it after unfolding). -/
abbrev arr (S : Shape) (x : S.Idx → EReal) : S.Idx → EReal := x

/-- The score scale 1/8 (= 64^(-1/2)), as the float word both programs carry. -/
def scale8 : EReal := Ideal.ofBits .f32 0x3E000000#32

/-- The running maximum's starting value: the word of -∞. -/
def negInf : EReal := Ideal.ofBits .f32 0xFF800000#32

/-! ## One head: causal softmax attention of three 2048 × 64 matrices -/

section Head

variable (Q K V : Fin 2048 → Fin 64 → EReal)

/-- Scaled dot product of query row `q` with key row `k`. -/
def score (q k : Fin 2048) : EReal := (∑ e : Fin 64, Q q e * K k e) * scale8

/-- The causal mask: a key after the query counts as -∞. -/
def masked (q k : Fin 2048) : EReal := if k.val ≤ q.val then score Q K q k else ⊥

/-- The row's maximum, started from -∞ and joined with -∞ once more (as both programs do). -/
def rowMax (q : Fin 2048) : EReal :=
  max negInf ((Finset.univ : Finset (Fin 2048)).fold max negInf (fun k => masked Q K q k))

/-- The shifted exponential. -/
def expo (q k : Fin 2048) : EReal := Ideal.exp (masked Q K q k - rowMax Q K q)

/-- The row's normaliser. -/
def denom (q : Fin 2048) : EReal := ∑ k : Fin 2048, expo Q K q k

/-- The softmax weight of key `k` for query `q`. -/
def prob (q k : Fin 2048) : EReal := Ideal.div (expo Q K q k) (denom Q K q)

/-- The head's output: the weighted sum of the value rows. -/
def headAttn (q : Fin 2048) (e : Fin 64) : EReal := ∑ k : Fin 2048, prob Q K q k * V k e

end Head

/-! ## The whole layer -/

section Layer

variable (X : (⟨3, ![4, 2048, 1024]⟩ : Shape).Idx → EReal) (Wq : (⟨2, ![3072, 1024]⟩ : Shape).Idx → EReal)
  (Wp : (⟨2, ![1024, 1024]⟩ : Shape).Idx → EReal) (Bp : (⟨1, ![1024]⟩ : Shape).Idx → EReal)

/-- The fused projection: row (b, t) of x against row d of the weight. -/
def qkv (b : Fin 4) (t : Fin 2048) (d : Fin 3072) : EReal := ∑ c : Fin 1024, X (ix3 b t c) * Wq (ix2 d c)

/-- Column `h·192 + o + e` of the fused projection: `o = 0` queries, `64` keys, `128` values of head `h`. -/
def headCol (h : Fin 16) (o : Nat) (ho : o + 64 ≤ 192) (e : Fin 64) : Fin 3072 :=
  ⟨h.val * 192 + o + e.val, by have := h.isLt; have := e.isLt; omega⟩

/-- Head `h` of batch `b`, attended: row t, lane e. -/
def attn (b : Fin 4) (h : Fin 16) (t : Fin 2048) (e : Fin 64) : EReal :=
  headAttn (fun t' e' => qkv X Wq b t' (headCol h 0 (by omega) e'))
           (fun t' e' => qkv X Wq b t' (headCol h 64 (by omega) e'))
           (fun t' e' => qkv X Wq b t' (headCol h 128 (by omega) e')) t e

/-- The head a merged column belongs to, and its lane there. -/
def colHead (c : Fin 1024) : Fin 16 := ⟨c.val / 64, by have := c.isLt; omega⟩
def colLane (c : Fin 1024) : Fin 64 := ⟨c.val % 64, Nat.mod_lt _ (by omega)⟩

/-- The heads side by side. -/
def merged (b : Fin 4) (t : Fin 2048) (c : Fin 1024) : EReal := attn X Wq b (colHead c) t (colLane c)

/-- The output projection with its bias. -/
def out (b : Fin 4) (t : Fin 2048) (d : Fin 1024) : EReal :=
  (∑ c : Fin 1024, merged X Wq b t c * Wp (ix2 d c)) + Bp (ix1 d)

/-- The layer as one array function of the four argument arrays. -/
def G : (⟨3, ![4, 2048, 1024]⟩ : Shape).Idx → EReal := fun i => out X Wq Wp Bp (i 0) (i 1) (i 2)

theorem G_apply (b : Fin 4) (t : Fin 2048) (d : Fin 1024) : G X Wq Wp Bp (ix3 b t d) = out X Wq Wp Bp b t d := rfl

end Layer

/-! ## How the flat arrays between the three matrix stages are laid out

  Rows of the [8192, ·] matrices are (batch, position) pairs, row = b·2048 + t; the 64 slabs of the
  [64, 2048, 64] arrays are (batch, head) pairs, slab = b·16 + h. -/

namespace Layout

/-- Batch of a flat row. -/
def rowB (r : Fin 8192) : Fin 4 := ⟨r.val / 2048, by have := r.isLt; omega⟩
/-- Position of a flat row. -/
def rowT (r : Fin 8192) : Fin 2048 := ⟨r.val % 2048, Nat.mod_lt _ (by omega)⟩
/-- The flat row of (batch, position). -/
def flatRow (b : Fin 4) (t : Fin 2048) : Fin 8192 := ⟨b.val * 2048 + t.val, by have := b.isLt; have := t.isLt; omega⟩
/-- Batch and head of a slab. -/
def slabB (g : Fin 64) : Fin 4 := ⟨g.val / 16, by have := g.isLt; omega⟩
def slabH (g : Fin 64) : Fin 16 := ⟨g.val % 16, Nat.mod_lt _ (by omega)⟩
/-- The slab of (batch, head). -/
def slab (b : Fin 4) (h : Fin 16) : Fin 64 := ⟨b.val * 16 + h.val, by have := b.isLt; have := h.isLt; omega⟩

theorem rowB_flatRow (b : Fin 4) (t : Fin 2048) : rowB (flatRow b t) = b := by
  apply Fin.ext; show (b.val * 2048 + t.val) / 2048 = b.val; have := t.isLt; omega
theorem rowT_flatRow (b : Fin 4) (t : Fin 2048) : rowT (flatRow b t) = t := by
  apply Fin.ext; show (b.val * 2048 + t.val) % 2048 = t.val; have := t.isLt; omega
theorem slabB_slab (b : Fin 4) (h : Fin 16) : slabB (slab b h) = b := by
  apply Fin.ext; show (b.val * 16 + h.val) / 16 = b.val; have := h.isLt; omega
theorem slabH_slab (b : Fin 4) (h : Fin 16) : slabH (slab b h) = h := by
  apply Fin.ext; show (b.val * 16 + h.val) % 16 = h.val; have := h.isLt; omega

end Layout

end Cert.Spec

end
-- ==== Proof.Reg0Value.lean ====
/-
  The first matrix kernel: every row of the activations against every row of the fused weight.

  The kernel runs over 16 grid points. Point t holds rows 512·t … 512·t + 511 of the left matrix
  (8192 × 1024), the whole right matrix (3072 × 1024), and writes rows 512·t … 512·t + 511 of the
  result (8192 × 3072). Its body is one block product into a zero accumulator, so entry (p, j) of
  the block it stores is ∑ k, left(p, k) · right(j, k): both operands are contracted along their
  second axis. The sixteen row blocks tile the result, so entry (r, d) of the whole result is
  ∑ k, left(r, k) · right(d, k), whatever the region found in the two operand arrays.
-/
import proofs.«167086_j40114994544681_1_alg».proof.Proof.FrameKernelIdeal
import proofs.«167086_j40114994544681_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Reg0

open Idealize.ShloMosaic Idealize.ShloMosaic.TcCoe Idealize.SL.Sem Idealize.ShloMosaic.ValueIdx
open Cert.KernelIdeal Cert.KernelIdeal.Gen Cert.KernelIdeal.GenP
open Idealize.ShloMosaic.Pipeline (Dat)
open Cert.Spec (arr)

/-! ## The block product at an entry -/

/-- The block product's dimension numbers: both operands contract their second axis. -/
abbrev dims := dot_S512x1024_S3072x1024_S512x3072_1_1_0_0_n_n

/-- The left operand's row is the output's row. -/
theorem lhs_row (i : S512x3072.Idx) (q : dims.contr.Idx) : (dims.lhsIdx i q 0).val = (i 0).val := by
  unfold DotDims.lhsIdx
  rw [dif_neg (show ¬(0 : Fin S512x1024.rank) ∈ dims.lhsBatch by decide), dif_pos (show (0 : Fin S512x1024.rank) ∈ dims.lhsNonContracting by decide)]
  rfl

/-- The left operand's column is the contraction position. -/
theorem lhs_col (i : S512x3072.Idx) (q : dims.contr.Idx) : (dims.lhsIdx i q 1).val = (q ⟨0, by decide⟩).val :=
  dims.lhsIdx_val_of_single rfl i q

/-- The right operand's row is the output's column. -/
theorem rhs_row (i : S512x3072.Idx) (q : dims.contr.Idx) : (dims.rhsIdx i q 0).val = (i 1).val := by
  unfold DotDims.rhsIdx
  rw [dif_neg (show ¬(0 : Fin S3072x1024.rank) ∈ dims.rhsBatch by decide), dif_pos (show (0 : Fin S3072x1024.rank) ∈ dims.rhsNonContracting by decide)]
  rfl

/-- The right operand's column is the contraction position. -/
theorem rhs_col (i : S512x3072.Idx) (q : dims.contr.Idx) : (dims.rhsIdx i q 1).val = (q ⟨0, by decide⟩).val :=
  dims.rhsIdx_val_of_single rfl i q

/-- Entry (p, j) of the stored block: row p of the left block against row j of the right block. -/
theorem pay_apply (x0 : Vec Ideal S512x1024 .bf16) (x1 : Vec Ideal S3072x1024 .bf16) (p : Fin 512) (j : Fin 3072) :
    k0_pay1 (F := Ideal) x0 x1 (ix2 p j) = ∑ k : Fin 1024, x0 (ix2 p k) * x1 (ix2 j k) := by
  unfold k0_pay1
  simp only [shapeCast_self, matmul]
  rw [Ideal.matmul_constant_zero_apply, ← Equiv.sum_comp (contrEquiv1 dims 1024 rfl rfl).symm]
  refine Finset.sum_congr rfl fun k _ => ?_
  have hk := contrEquiv1_symm_val dims 1024 rfl rfl k
  have el : dims.lhsIdx (ix2 p j) ((contrEquiv1 dims 1024 rfl rfl).symm k) = ix2 p k := funext fun a => Fin.ext (by
    match a with
    | ⟨0, _⟩ => exact lhs_row _ _
    | ⟨1, _⟩ => exact (lhs_col _ _).trans hk)
  have er : dims.rhsIdx (ix2 p j) ((contrEquiv1 dims 1024 rfl rfl).symm k) = ix2 j k := funext fun a => Fin.ext (by
    match a with
    | ⟨0, _⟩ => exact rhs_row _ _
    | ⟨1, _⟩ => exact (rhs_col _ _).trans hk)
  rw [el, er]

/-! ## The whole result as one function of the two operand arrays -/

/-- Entry (r, d) of the product of `a` (8192 × 1024) with the transpose of `b` (3072 × 1024). -/
def prod (a : S8192x1024.Idx → EReal) (b : S3072x1024.Idx → EReal) : S8192x3072.Idx → EReal :=
  fun i => ∑ k : Fin 1024, a (ix2 (⟨(i 0).val, (i 0).isLt⟩ : Fin 8192) k) * b (ix2 (⟨(i 1).val, (i 1).isLt⟩ : Fin 3072) k)

theorem prod_apply (a : S8192x1024.Idx → EReal) (b : S3072x1024.Idx → EReal) (r : Fin 8192) (d : Fin 3072) :
    prod a b (ix2 r d) = ∑ k : Fin 1024, a (ix2 r k) * b (ix2 d k) := rfl

/-! ## Which rows each grid point holds -/

theorem hz : (![0, 0] : Fin 2 → Nat) = fun _ => 0 := funext fun a => by fin_cases a <;> rfl

/-- The index maps over the grid: point t holds row block t of the left operand and of the result, and the
    whole right operand. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- Row p of the left block at point t is row 512·t + p of the left array. -/
theorem left_block (c : Dev nD) (t : Fin cfg0.N) (p : Fin 512) (k : Fin 1024) (r : Fin 8192) (hr : r.val = 512 * t.val + p.val) :
    (iblk0 V c 0 t : Vec Ideal S512x1024 .bf16) (ix2 p k) = arr S8192x1024 (V c main_v1) (ix2 r k) := by
  obtain ⟨e0, e1, -⟩ := idx_facts t
  unfold iblk0
  rw [View.read_apply]
  show V c main_v1 _ = V c main_v1 _
  congr 1
  funext a
  apply Fin.ext
  match a with
  | ⟨0, _⟩ => show win0_0.index t (0 : Fin 2) * 512 + 1 * p.val = r.val; rw [e0, hr]; omega
  | ⟨1, _⟩ => show win0_0.index t (1 : Fin 2) * 1024 + 1 * k.val = k.val; rw [e1]; omega

/-- The right block at every point is the whole right array. -/
theorem right_block (c : Dev nD) (t : Fin cfg0.N) (j : Fin 3072) (k : Fin 1024) :
    (iblk0 V c 1 t : Vec Ideal S3072x1024 .bf16) (ix2 j k) = arr S3072x1024 (V c main_v2) (ix2 j k) := by
  obtain ⟨-, -, e2, e3, -⟩ := idx_facts t
  unfold iblk0
  rw [View.read_apply]
  show V c main_v2 _ = V c main_v2 _
  congr 1
  funext a
  apply Fin.ext
  match a with
  | ⟨0, _⟩ => show win0_1.index t (0 : Fin 2) * 3072 + 1 * j.val = j.val; rw [e2]; omega
  | ⟨1, _⟩ => show win0_1.index t (1 : Fin 2) * 1024 + 1 * k.val = k.val; rw [e3]; omega
end

section
variable (V : (c : Dev nD) → (b : Ref sig .tc) → Buf (Elt Ideal) ((c : Thread nD τ).loc b))

/-! ## What each grid point writes back -/

/-- An entry of the block stored at point t, against the entry of the whole product it lands on:
    for blocks that are rows 512·T … of `a` and all of `b`. -/
theorem entry_eq (a : S8192x1024.Idx → EReal) (b : S3072x1024.Idx → EReal)
    (x0 : Vec Ideal S512x1024 .bf16) (x1 : Vec Ideal S3072x1024 .bf16) (T : Nat)
    (h0 : ∀ (p : Fin 512) (k : Fin 1024) (r : Fin 8192), r.val = 512 * T + p.val → x0 (ix2 p k) = a (ix2 r k))
    (h1 : ∀ (j : Fin 3072) (k : Fin 1024), x1 (ix2 j k) = b (ix2 j k))
    (p : Fin 512) (j : Fin 3072) (i : S8192x3072.Idx) (hi0 : (i 0).val = 512 * T + p.val) (hi1 : (i 1).val = j.val) :
    k0_pay1 (F := Ideal) x0 x1 (ix2 p j) = prod a b i := by
  rw [pay_apply]
  unfold prod
  refine Finset.sum_congr rfl fun k _ => ?_
  rw [h0 p k ⟨(i 0).val, (i 0).isLt⟩ hi0, h1 j k]
  have ej : (⟨(i 1).val, (i 1).isLt⟩ : Fin 3072) = j := Fin.ext hi1
  rw [ej]

/-- Point t writes back block t of the whole product of the arrays the region found. -/
theorem flushed_eq (c : Dev nD) (t : Fin cfg0.N) :
    (dat0 (F := Ideal) V c).flushed 2 t
      = ((cfg0.win 2).blk t).view.read (Elt Ideal) (prod (V c main_v1) (V c main_v2)) := by
  show (cfg0.win 2).cut (grid0.coords t) ((dat0 V c).after 2 t) = _
  rw [after0_2]
  unfold out0_2
  rw [View.canon_unit_zero hz]
  simp only [View.ld_unit_zero (S := S512x1024) hz, View.ld_unit_zero (S := S3072x1024) hz]
  obtain ⟨-, -, -, -, e4, e5⟩ := idx_facts t
  funext y
  show k0_pay1 (F := Ideal) (iblk0 V c 0 t) (iblk0 V c 1 t) y = prod (V c main_v1) (V c main_v2) (((cfg0.win 2).blk t).view.emb y)
  obtain ⟨p, j, rfl⟩ : ∃ (p : Fin 512) (j : Fin 3072), y = ix2 p j := ⟨y 0, y 1, eq_ix2 y⟩
  refine entry_eq (V c main_v1) (V c main_v2) (iblk0 V c 0 t) (iblk0 V c 1 t) t.val
    (fun p k r hr => left_block V c t p k r hr) (fun j k => right_block V c t j k) p j _ ?_ ?_
  · show win0_2.index t (0 : Fin 2) * 512 + 1 * p.val = 512 * t.val + p.val
    rw [e4]; omega
  · show win0_2.index t (1 : Fin 2) * 3072 + 1 * j.val = j.val
    rw [e5]; omega

/-! ## The sixteen row blocks tile the result -/

/-- An index is in point t's block iff each coordinate is in the block's range on its axis. -/
theorem mem_blk (t : Fin cfg0.N) (i : S8192x3072.Idx) :
    i ∈ ((cfg0.win 2).blk t).view.set ↔ ∀ a : Fin 2, win0_2.index t a * S512x3072.size a ≤ (i a).val ∧ (i a).val < win0_2.index t a * S512x3072.size a + S512x3072.size a := by
  show i ∈ ((View.whole main_v3).slice (win0_2.rect t)).set ↔ _
  rw [View.set_slice_whole, Rect.mem_set_unit]
  exact Iff.rfl

/-- Row r of the result is written by point r / 512. -/
theorem cover (i : S8192x3072.Idx) :
    ∃ t : Fin cfg0.N, (cfg0.win 2).flush t = true ∧ i ∈ ((cfg0.win 2).blk t).view.set := by
  have hi0 : (i 0).val < 8192 := (i 0).isLt
  have hi1 : (i 1).val < 3072 := (i 1).isLt
  have hN : cfg0.N = 16 := N_0
  have hlt : (i 0).val / 512 < cfg0.N := by rw [hN]; omega
  obtain ⟨-, -, -, -, e4, e5⟩ := idx_facts ⟨(i 0).val / 512, hlt⟩
  refine ⟨⟨(i 0).val / 512, hlt⟩, flush0_2 _, ?_⟩
  rw [mem_blk]
  intro a
  match a with
  | ⟨0, _⟩ =>
    show win0_2.index ⟨(i 0).val / 512, hlt⟩ (0 : Fin 2) * 512 ≤ (i 0).val ∧ (i 0).val < win0_2.index ⟨(i 0).val / 512, hlt⟩ (0 : Fin 2) * 512 + 512
    rw [e4]; show (i 0).val / 512 * 512 ≤ (i 0).val ∧ (i 0).val < (i 0).val / 512 * 512 + 512; omega
  | ⟨1, _⟩ =>
    show win0_2.index ⟨(i 0).val / 512, hlt⟩ (1 : Fin 2) * 3072 ≤ (i 1).val ∧ (i 1).val < win0_2.index ⟨(i 0).val / 512, hlt⟩ (1 : Fin 2) * 3072 + 3072
    rw [e5]; omega

/-- The result array after the region's run is the whole product. -/
theorem final (c : Dev nD) : (dat0 (F := Ideal) V c).arrAt 2 cfg0.N = prod (V c main_v1) (V c main_v2) :=
  (dat0 (F := Ideal) V c).arrAt_eq_of_cover 2 (prod (V c main_v1) (V c main_v2)) (fun t _ => flushed_eq V c t) cover

/-- Entry (r, d) of the result array after the region's run. -/
theorem value (c : Dev nD) (r : Fin 8192) (d : Fin 3072) :
    arr S8192x3072 ((dat0 (F := Ideal) V c).arrAt 2 cfg0.N) (ix2 r d)
      = ∑ k : Fin 1024, arr S8192x1024 (V c main_v1) (ix2 r k) * arr S3072x1024 (V c main_v2) (ix2 d k) :=
  (congrFun (final V c) (ix2 r d)).trans (prod_apply _ _ r d)
end

end Cert.KernelIdeal.Reg0

end
-- ==== Proof.Reg1Stages.lean ====
/-
  The attention body's arithmetic cut into its stages.

  For one grid point (slab g, query block qi) the body holds a block of 512 query rows, and all
  2048 key rows and value rows of the slab. It computes, for query row r of the block and key k,
    s(r,k)  = (sum over e of Q(r,e) * K(k,e)) * 1/8                      (scores)
    m(r,k)  = s(r,k) where k <= qi*512 + r, the fill value elsewhere     (causal mask)
    mx(r)   = max(-inf, max over k of m(r,k))                            (row maximum)
    p(r,k)  = exp(m(r,k) - mx(r))                                        (shifted exponential)
    w(r,k)  = p(r,k) / (sum over k' of p(r,k'))                          (softmax weight)
    o(r,e)  = sum over k of w(r,k) * V(k,e)                              (weighted values)
  Each stage is named here as a function of the previous one, so that each can be read at an index
  by a lemma of its own; the body's one pure term is their composition, by unfolding.
-/
import proofs.«167086_j40114994544681_1_alg».proof.Proof.Gen.KernelIdeal.Skeleton

noncomputable section

namespace Cert.KernelIdeal.Reg1

open Idealize.ShloMosaic Idealize.SL.Sem
open Cert.KernelIdeal Cert.KernelIdeal.Gen

/-- The scaled scores of the 512 query rows against the 2048 key rows. -/
def scoresV (x0 : Vec Ideal S1x512x64 .bf16) (x1 : Vec Ideal S1x2048x64 .bf16) : FVec Ideal S512x2048 .f32 :=
  mulf (matmul dot_S512x64_S2048x64_S512x2048_1_1_0_0_n_n none
          (shapeCast S512x64 x0 shapeCasts_S1x512x64_S512x64 : FVec Ideal S512x64 .bf16)
          (shapeCast S2048x64 x1 shapeCasts_S1x2048x64_S2048x64 : FVec Ideal S2048x64 .bf16)
          (constant S512x2048 .f32 0x00000000#32))
       (broadcast S512x2048 (Scalar.ofBits .f32 0x3E000000#32))

/-- The causal mask of query block `i 1`: at (r, k) the comparison k <= (i 1) * 512 + r, as a one-bit word. -/
def maskW (i : grid1.Coords) : IVec S512x2048 1 :=
  cmpi .sle (iota .tc S512x2048 32 [1] iota_S512x2048_d1_w32)
    (addi (broadcast S512x2048 (Scalar.muli (BitVec.ofNat 32 (i 1).val) 512#32))
          (iota .tc S512x2048 32 [0] iota_S512x2048_d0_w32))

/-- The scores with the fill value where the mask is off. -/
def maskedV (i : grid1.Coords) (s : FVec Ideal S512x2048 .f32) : FVec Ideal S512x2048 .f32 :=
  select (maskW i) s (broadcast S512x2048 (Named.named κ "neg_big" 0xFF333332#32))

/-- The row maximum, started from the word of -inf and joined with it once more. -/
def rowMaxV (s : FVec Ideal S512x2048 .f32) : FVec Ideal S512 .f32 :=
  maximumf (broadcast S512 (Scalar.ofBits .f32 0xFF800000#32))
    (multiReduction .maximumf [1] S512 s 0xFF800000#32 reduces_S512x2048_S512 (.inl rfl) rfl)

/-- A per-row value spread along its row. -/
def colV (v : FVec Ideal S512 .f32) : FVec Ideal S512x2048 .f32 :=
  broadcastTo S512x2048 (shapeCast S512x1 v shapeCasts_S512_S512x1) broadcasts_S512x1_S512x2048

/-- The shifted exponential. -/
def expoV (s : FVec Ideal S512x2048 .f32) : FVec Ideal S512x2048 .f32 :=
  exp (subf s (colV (rowMaxV s)))

/-- The softmax weights: each row divided by its sum. -/
def probV (p : FVec Ideal S512x2048 .f32) : FVec Ideal S512x2048 .bf16 :=
  truncf .bf16 (divf p (colV (multiReduction .add [1] S512 p 0x00000000#32 reduces_S512x2048_S512 (.inl rfl) rfl))) bitsLt_bf16_f32

/-- The weights applied to the value rows, as a block of the output. -/
def outV (w : FVec Ideal S512x2048 .bf16) (x2 : Vec Ideal S1x2048x64 .bf16) : FVec Ideal S1x512x64 .f32 :=
  shapeCast S1x512x64
    (matmul dot_S512x2048_S2048x64_S512x64_1_0_0_1_n_n none w
      (shapeCast S2048x64 x2 shapeCasts_S1x2048x64_S2048x64 : FVec Ideal S2048x64 .bf16) (constant S512x64 .f32 0x00000000#32))
    shapeCasts_S512x64_S1x512x64

/-- The body's pure term is the composition of the stages. -/
theorem pay_eq_stages (i : grid1.Coords) (x0 : Vec Ideal S1x512x64 .bf16) (x1 x2 : Vec Ideal S1x2048x64 .bf16) :
    k1_pay1 (F := Ideal) i x0 x1 x2 = outV (probV (expoV (maskedV i (scoresV x0 x1)))) x2 := rfl

end Cert.KernelIdeal.Reg1

end
-- ==== Proof.Reg1Mask.lean ====
/-
  The causal mask of the attention body read at an index, and the fill value.

  At row r of query block qi and key column k the mask word compares two 32-bit integers,
  k and qi * 512 + r. Both are below 2048 (qi < 4, r < 512, k < 2048), so neither the product nor
  the sum wraps and the signed comparison is the comparison of the natural numbers. The fill value
  is the constant the certificate names "neg_big", which denotes -inf on the extended reals.
-/
import proofs.«167086_j40114994544681_1_alg».proof.Proof.Reg1Stages
import Idealize.ShloMosaic.Lib.Pipeline.Value
import Idealize.ShloMosaic.Lib.ValueIdx
import Idealize.ShloMosaic.Lib.Affine
import Idealize.ShloMosaic.PureOps.Ideal.Laws

noncomputable section

namespace Cert.KernelIdeal.Reg1

open Idealize.ShloMosaic Idealize.SL.Sem Idealize.ShloMosaic.ValueIdx
open Cert.KernelIdeal Cert.KernelIdeal.Gen

/-- The mask is on at (r, k) exactly when key k is not after query qi * 512 + r. -/
theorem maskW_apply (i : grid1.Coords) (r : Fin 512) (k : Fin 2048) :
    maskW i (ix2 r k) = 1#1 ↔ k.val ≤ (i 1).val * 512 + r.val := by
  have hi : (i 1).val < 4 := (i 1).isLt
  have hr := r.isLt
  have hk := k.isLt
  have h13 : Affine.IsInt (BitVec.ofNat 32 k.val) (k.val : Int) := Affine.ofNat _ ⟨rfl, by omega⟩
  have h10 : Affine.IsInt (BitVec.ofNat 32 r.val) (r.val : Int) := Affine.ofNat _ ⟨rfl, by omega⟩
  have ha : Affine.IsInt (BitVec.ofNat 32 (i 1).val) ((i 1).val : Int) := Affine.ofNat _ ⟨rfl, by omega⟩
  have h512 : Affine.IsInt (BitVec.ofNat 32 512) (512 : Int) := Affine.ofNat 512 ⟨rfl, by omega⟩
  have h9 : Affine.IsInt (Scalar.muli (BitVec.ofNat 32 (i 1).val) (BitVec.ofNat 32 512)) ((i 1).val * 512 : Int) :=
    Affine.muli ha h512 ⟨rfl, by omega, by omega⟩
  have h12 : Affine.IsInt (Scalar.addi (Scalar.muli (BitVec.ofNat 32 (i 1).val) (BitVec.ofNat 32 512)) (BitVec.ofNat 32 r.val))
      ((i 1).val * 512 + r.val : Int) := Affine.addi h9 h10 ⟨rfl, by omega, by omega⟩
  have e : maskW i (ix2 r k)
      = Scalar.cmpi .sle (BitVec.ofNat 32 k.val)
          (Scalar.addi (Scalar.muli (BitVec.ofNat 32 (i 1).val) (BitVec.ofNat 32 512)) (BitVec.ofNat 32 r.val)) := by
    unfold maskW
    show IntOp.cmpi .sle (iota .tc S512x2048 32 [1] iota_S512x2048_d1_w32 (ix2 r k))
        (IntOp.addi (Scalar.muli (BitVec.ofNat 32 (i 1).val) 512#32) (iota .tc S512x2048 32 [0] iota_S512x2048_d0_w32 (ix2 r k))) = _
    rw [iota_single_apply, iota_single_apply]
    rfl
  rw [e]
  constructor
  · intro h
    by_contra hn
    exact Affine.sle_fails h13 h12 (by omega) h
  · intro h
    exact Affine.sle_holds h13 h12 (by omega)

/-- The fill value denotes -inf. -/
theorem negBig_eq : Named.named (F := Ideal) κ "neg_big" (φ := .f32) 0xFF333332#32 = (⊥ : EReal) :=
  IdealRules.named_const.ideal_named_scalar _ _ _ _ rfl

/-- The masked scores at (r, k): the score where the key is not after the query, -inf elsewhere. -/
theorem maskedV_apply (i : grid1.Coords) (s : FVec Ideal S512x2048 .f32) (r : Fin 512) (k : Fin 2048) :
    maskedV i s (ix2 r k) = if k.val ≤ (i 1).val * 512 + r.val then s (ix2 r k) else (⊥ : EReal) := by
  unfold maskedV
  rw [select_apply]
  by_cases h : k.val ≤ (i 1).val * 512 + r.val
  · rw [if_pos h, (maskW_apply i r k).mpr h, select_one]
  · rw [if_neg h, eq_zero_of_ne_one (mt (maskW_apply i r k).mp h), select_zero]
    exact negBig_eq

end Cert.KernelIdeal.Reg1

end
-- ==== Proof.Reg1Scores.lean ====
/-
  The scores of the attention body read at an index.

  The first matrix product contracts the lane axis of the query block [512, 64] with the lane axis
  of the key rows [2048, 64]; both operands are the loaded [1, ., 64] blocks with the unit axis
  dropped. Into a zero accumulator the product at (r, k) is the sum over the 64 lanes of
  Q(0, r, e) * K(0, k, e); the scale 1/8 multiplies it, as the word the program carries.
-/
import proofs.«167086_j40114994544681_1_alg».proof.Proof.Reg1Stages
import proofs.«167086_j40114994544681_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg1

open Idealize.ShloMosaic Idealize.SL.Sem Idealize.ShloMosaic.ValueIdx
open Cert.KernelIdeal Cert.KernelIdeal.Gen
open scoped BigOperators

/-- The dimension numbers of the first product. -/
abbrev dotQK := dot_S512x64_S2048x64_S512x2048_1_1_0_0_n_n

theorem dotQK_lhs0 (j : S512x2048.Idx) (q : dotQK.contr.Idx) : (dotQK.lhsIdx j q 0).val = (j 0).val := by
  unfold DotDims.lhsIdx
  rw [dif_neg (show ¬(0 : Fin S512x64.rank) ∈ dotQK.lhsBatch by decide), dif_pos (show (0 : Fin S512x64.rank) ∈ dotQK.lhsNonContracting by decide)]
  rfl
theorem dotQK_lhs1 (j : S512x2048.Idx) (q : dotQK.contr.Idx) : (dotQK.lhsIdx j q 1).val = (q ⟨0, by decide⟩).val :=
  dotQK.lhsIdx_val_of_single rfl j q
theorem dotQK_rhs0 (j : S512x2048.Idx) (q : dotQK.contr.Idx) : (dotQK.rhsIdx j q 0).val = (j 1).val := by
  unfold DotDims.rhsIdx
  rw [dif_neg (show ¬(0 : Fin S2048x64.rank) ∈ dotQK.rhsBatch by decide), dif_pos (show (0 : Fin S2048x64.rank) ∈ dotQK.rhsNonContracting by decide)]
  rfl
theorem dotQK_rhs1 (j : S512x2048.Idx) (q : dotQK.contr.Idx) : (dotQK.rhsIdx j q 1).val = (q ⟨0, by decide⟩).val :=
  dotQK.rhsIdx_val_of_single rfl j q

/-- The first product at (r, k), its operands any two matrices: the sum over the lanes. -/
theorem matmulQK_apply (A : FVec Ideal S512x64 .bf16) (B : FVec Ideal S2048x64 .bf16) (r : Fin 512) (k : Fin 2048) :
    matmul dotQK none A B (constant S512x2048 .f32 0x00000000#32) (ix2 r k) = ∑ e : Fin 64, A (ix2 r e) * B (ix2 k e) := by
  refine (Ideal.matmul_constant_zero_apply dotQK none A B (ix2 r k)).trans ?_
  rw [← Equiv.sum_comp (ValueIdx.contrEquiv1 dotQK 64 rfl rfl).symm]
  refine Finset.sum_congr rfl fun e _ => ?_
  have he := ValueIdx.contrEquiv1_symm_val dotQK 64 rfl rfl e
  have el : dotQK.lhsIdx (ix2 r k) ((ValueIdx.contrEquiv1 dotQK 64 rfl rfl).symm e) = ix2 r e := funext fun a => Fin.ext (by
    match a with
    | ⟨0, _⟩ => exact dotQK_lhs0 _ _
    | ⟨1, _⟩ => exact (dotQK_lhs1 _ _).trans he)
  have er : dotQK.rhsIdx (ix2 r k) ((ValueIdx.contrEquiv1 dotQK 64 rfl rfl).symm e) = ix2 k e := funext fun a => Fin.ext (by
    match a with
    | ⟨0, _⟩ => exact dotQK_rhs0 _ _
    | ⟨1, _⟩ => exact (dotQK_rhs1 _ _).trans he)
  rw [el, er]

/-- The scaled score of query row r against key row k. -/
theorem scoresV_apply (x0 : Vec Ideal S1x512x64 .bf16) (x1 : Vec Ideal S1x2048x64 .bf16) (r : Fin 512) (k : Fin 2048) :
    scoresV x0 x1 (ix2 r k)
      = (∑ e : Fin 64, (x0 (ix3 (0 : Fin 1) r e) : EReal) * (x1 (ix3 (0 : Fin 1) k e) : EReal)) * Cert.Spec.scale8 := by
  unfold scoresV Cert.Spec.scale8
  rw [mulf_apply, broadcast_apply]
  refine congrArg (· * Ideal.ofBits .f32 0x3E000000#32) ?_
  refine (matmulQK_apply _ _ r k).trans ?_
  refine Finset.sum_congr rfl fun e _ => ?_
  rw [shapeCast_1ab_ab_apply, shapeCast_1ab_ab_apply]

end Cert.KernelIdeal.Reg1

end
-- ==== Proof.Reg1Softmax.lean ====
/-
  The softmax stages of the attention body read at an index.

  Row r of the masked scores has 2048 entries m(k). The body takes the row's maximum as a fold of
  max from the word of -inf, joined once more with that word; spreads it along the row (a [512]
  vector viewed as a [512, 1] column and broadcast to [512, 2048]); subtracts and exponentiates;
  sums the row; spreads the sum the same way and divides. The change of float format of the
  weights is the identity on the extended reals. So the weight at (r, k) is
    exp(m(k) - mx) / (sum over k' of exp(m(k') - mx)),   mx = max(-inf, fold max (-inf) m).
-/
import proofs.«167086_j40114994544681_1_alg».proof.Proof.Reg1Stages
import proofs.«167086_j40114994544681_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg1

open Idealize.ShloMosaic Idealize.SL.Sem Idealize.ShloMosaic.ValueIdx
open Cert.KernelIdeal Cert.KernelIdeal.Gen
open scoped BigOperators

/-- Inserting key coordinate k into the row index r gives (r, k). -/
theorem lift_row (r : Fin 512) (k : Fin 2048) : reduces_S512x2048_S512.lift (ix1 r) k = ix2 r k :=
  funext fun a => Fin.ext (by
    match a with
    | ⟨0, _⟩ => rfl
    | ⟨1, _⟩ => rfl)

/-- A per-row value spread along its row reads, at (r, k), the value of row r. -/
theorem colV_apply (v : FVec Ideal S512 .f32) (r : Fin 512) (k : Fin 2048) : colV v (ix2 r k) = v (ix1 r) := by
  unfold colV
  refine (broadcastTo_apply _ broadcasts_S512x1_S512x2048 (ix2 r k) (ix2 r (0 : Fin 1)) fun a => ?_).trans ?_
  · match a with
    | ⟨0, _⟩ => rfl
    | ⟨1, _⟩ => rfl
  · exact shapeCast_apply v shapeCasts_S512_S512x1 (ix2 r (0 : Fin 1)) (ix1 r) (by
      rw [Shape.rowMajor_val_one, Shape.rowMajor_val_two]
      show r.val = r.val * 1 + 0
      omega)

/-- The row maximum at row r: the fold of max over the row from -inf, joined with -inf. -/
theorem rowMaxV_apply (s : FVec Ideal S512x2048 .f32) (r : Fin 512) :
    rowMaxV s (ix1 r)
      = max Cert.Spec.negInf ((Finset.univ : Finset (Fin 2048)).fold max Cert.Spec.negInf (fun k => (s (ix2 r k) : EReal))) := by
  unfold rowMaxV Cert.Spec.negInf
  rw [maximumf_apply, broadcast_apply]
  refine congrArg (max (Ideal.ofBits .f32 0xFF800000#32)) ?_
  refine (Ideal.multiReduction_maximumf_single s 0xFF800000#32 reduces_S512x2048_S512 (.inl rfl) rfl (ix1 r)).trans ?_
  show (Finset.univ : Finset (Fin 2048)).fold max (Ideal.ofBits .f32 0xFF800000#32) (fun k => s (reduces_S512x2048_S512.lift (ix1 r) k)) = _
  exact congrArg ((Finset.univ : Finset (Fin 2048)).fold max (Ideal.ofBits .f32 0xFF800000#32)) (funext fun k => congrArg s (lift_row r k))

/-- The shifted exponential at (r, k). -/
theorem expoV_apply (s : FVec Ideal S512x2048 .f32) (r : Fin 512) (k : Fin 2048) :
    expoV s (ix2 r k) = Ideal.exp ((s (ix2 r k) : EReal) - rowMaxV s (ix1 r)) := by
  unfold expoV
  show Ideal.exp ((s (ix2 r k) : EReal) - colV (rowMaxV s) (ix2 r k)) = _
  rw [colV_apply]

/-- The softmax weight at (r, k): the entry divided by its row's sum. -/
theorem probV_apply (p : FVec Ideal S512x2048 .f32) (r : Fin 512) (k : Fin 2048) :
    probV p (ix2 r k) = Ideal.div (p (ix2 r k)) (∑ k' : Fin 2048, (p (ix2 r k') : EReal)) := by
  unfold probV
  show Ideal.div (p (ix2 r k))
      (colV (multiReduction .add [1] S512 p 0x00000000#32 reduces_S512x2048_S512 (.inl rfl) rfl) (ix2 r k)) = _
  rw [colV_apply]
  refine congrArg (Ideal.div (p (ix2 r k))) ?_
  refine (Ideal.multiReduction_add_single p 0x00000000#32 reduces_S512x2048_S512 (.inl rfl) rfl (ix1 r)).trans ?_
  show ∑ k' : Fin 2048, p (reduces_S512x2048_S512.lift (ix1 r) k') = _
  exact Finset.sum_congr rfl fun k' _ => congrArg p (lift_row r k')

/-- Row r of the weights, from row r of the masked scores m. -/
theorem softmax_row (M : FVec Ideal S512x2048 .f32) (r : Fin 512) (m : Fin 2048 → EReal)
    (hM : ∀ k, (M (ix2 r k) : EReal) = m k) (k : Fin 2048) :
    probV (expoV M) (ix2 r k)
      = Ideal.div (Ideal.exp (m k - max Cert.Spec.negInf ((Finset.univ : Finset (Fin 2048)).fold max Cert.Spec.negInf m)))
          (∑ k' : Fin 2048, Ideal.exp (m k' - max Cert.Spec.negInf ((Finset.univ : Finset (Fin 2048)).fold max Cert.Spec.negInf m))) := by
  have hmx : rowMaxV M (ix1 r) = max Cert.Spec.negInf ((Finset.univ : Finset (Fin 2048)).fold max Cert.Spec.negInf m) := by
    rw [rowMaxV_apply]
    exact congrArg (fun f => max Cert.Spec.negInf ((Finset.univ : Finset (Fin 2048)).fold max Cert.Spec.negInf f)) (funext hM)
  have hex : ∀ k', expoV M (ix2 r k')
      = Ideal.exp (m k' - max Cert.Spec.negInf ((Finset.univ : Finset (Fin 2048)).fold max Cert.Spec.negInf m)) := fun k' => by
    rw [expoV_apply, hM, hmx]
  rw [probV_apply, hex]
  exact congrArg (Ideal.div _) (Finset.sum_congr rfl fun k' _ => hex k')

end Cert.KernelIdeal.Reg1

end
-- ==== Proof.Reg1Out.lean ====
/-
  The last stage of the attention body read at an index.

  The second matrix product contracts the key axis of the weights [512, 2048] with the row axis of
  the value rows [2048, 64] (the loaded [1, 2048, 64] block with the unit axis dropped); into a zero
  accumulator the product at (r, e) is the sum over the 2048 keys of w(r, k) * V(0, k, e). The
  result is stored as a [1, 512, 64] block: the unit axis is put back.
-/
import proofs.«167086_j40114994544681_1_alg».proof.Proof.Reg1Stages
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg1

open Idealize.ShloMosaic Idealize.SL.Sem Idealize.ShloMosaic.ValueIdx
open Cert.KernelIdeal Cert.KernelIdeal.Gen
open scoped BigOperators

/-- The dimension numbers of the second product. -/
abbrev dotPV := dot_S512x2048_S2048x64_S512x64_1_0_0_1_n_n

theorem dotPV_lhs0 (j : S512x64.Idx) (q : dotPV.contr.Idx) : (dotPV.lhsIdx j q 0).val = (j 0).val := by
  unfold DotDims.lhsIdx
  rw [dif_neg (show ¬(0 : Fin S512x2048.rank) ∈ dotPV.lhsBatch by decide), dif_pos (show (0 : Fin S512x2048.rank) ∈ dotPV.lhsNonContracting by decide)]
  rfl
theorem dotPV_lhs1 (j : S512x64.Idx) (q : dotPV.contr.Idx) : (dotPV.lhsIdx j q 1).val = (q ⟨0, by decide⟩).val :=
  dotPV.lhsIdx_val_of_single rfl j q
theorem dotPV_rhs0 (j : S512x64.Idx) (q : dotPV.contr.Idx) : (dotPV.rhsIdx j q 0).val = (q ⟨0, by decide⟩).val :=
  dotPV.rhsIdx_val_of_single rfl j q
theorem dotPV_rhs1 (j : S512x64.Idx) (q : dotPV.contr.Idx) : (dotPV.rhsIdx j q 1).val = (j 1).val := by
  unfold DotDims.rhsIdx
  rw [dif_neg (show ¬(1 : Fin S2048x64.rank) ∈ dotPV.rhsBatch by decide), dif_pos (show (1 : Fin S2048x64.rank) ∈ dotPV.rhsNonContracting by decide)]
  rfl

/-- The second product at (r, e), its operands any two matrices: the sum over the keys. -/
theorem matmulPV_apply (A : FVec Ideal S512x2048 .bf16) (B : FVec Ideal S2048x64 .bf16) (r : Fin 512) (e : Fin 64) :
    matmul dotPV none A B (constant S512x64 .f32 0x00000000#32) (ix2 r e) = ∑ k : Fin 2048, A (ix2 r k) * B (ix2 k e) := by
  refine (Ideal.matmul_constant_zero_apply dotPV none A B (ix2 r e)).trans ?_
  rw [← Equiv.sum_comp (ValueIdx.contrEquiv1 dotPV 2048 rfl rfl).symm]
  refine Finset.sum_congr rfl fun k _ => ?_
  have hk := ValueIdx.contrEquiv1_symm_val dotPV 2048 rfl rfl k
  have el : dotPV.lhsIdx (ix2 r e) ((ValueIdx.contrEquiv1 dotPV 2048 rfl rfl).symm k) = ix2 r k := funext fun a => Fin.ext (by
    match a with
    | ⟨0, _⟩ => exact dotPV_lhs0 _ _
    | ⟨1, _⟩ => exact (dotPV_lhs1 _ _).trans hk)
  have er : dotPV.rhsIdx (ix2 r e) ((ValueIdx.contrEquiv1 dotPV 2048 rfl rfl).symm k) = ix2 k e := funext fun a => Fin.ext (by
    match a with
    | ⟨0, _⟩ => exact (dotPV_rhs0 _ _).trans hk
    | ⟨1, _⟩ => exact dotPV_rhs1 _ _)
  rw [el, er]

/-- The output block at (0, r, e): the weights of row r applied to lane e of the value rows. -/
theorem outV_apply (w : FVec Ideal S512x2048 .bf16) (x2 : Vec Ideal S1x2048x64 .bf16) (r : Fin 512) (e : Fin 64) :
    outV w x2 (ix3 (0 : Fin 1) r e) = ∑ k : Fin 2048, (w (ix2 r k) : EReal) * (x2 (ix3 (0 : Fin 1) k e) : EReal) := by
  unfold outV
  refine (shapeCast_ab_1ab_apply _ _ (0 : Fin 1) r e).trans ?_
  refine (matmulPV_apply _ _ r e).trans ?_
  refine Finset.sum_congr rfl fun k _ => ?_
  rw [shapeCast_1ab_ab_apply]

end Cert.KernelIdeal.Reg1

end
-- ==== Proof.Reg1Payload.lean ====
/-
  The attention body's pure term read at an index.

  At grid point (g, qi) the body holds query rows qi * 512 .. qi * 512 + 511 of the slab and all
  of its key and value rows. Row r of the block is query q = qi * 512 + r. Stage by stage — the
  scaled scores, the causal mask (key k counts when k <= q, which is the printed comparison because
  nothing wraps below 2048), the row maximum, the shifted exponential, the row sum, the quotient,
  the weighted sum of the value rows — the entry (0, r, e) of what the body stores is the causal
  softmax attention of query q at lane e: the head's specification read at (q, e). The specification
  reads its query matrix at row q only, so the queries are constrained at that row alone.
-/
import proofs.«167086_j40114994544681_1_alg».proof.Proof.Reg1Mask
import proofs.«167086_j40114994544681_1_alg».proof.Proof.Reg1Scores
import proofs.«167086_j40114994544681_1_alg».proof.Proof.Reg1Softmax
import proofs.«167086_j40114994544681_1_alg».proof.Proof.Reg1Out
import proofs.«167086_j40114994544681_1_alg».proof.Proof.Spec

noncomputable section

namespace Cert.KernelIdeal.Reg1

open Idealize.ShloMosaic Idealize.SL.Sem Idealize.ShloMosaic.ValueIdx
open Cert.KernelIdeal Cert.KernelIdeal.Gen
open scoped BigOperators

theorem payload_apply (i : grid1.Coords) (x0 : Vec Ideal S1x512x64 .bf16) (x1 x2 : Vec Ideal S1x2048x64 .bf16)
    (Q : Fin 2048 → Fin 64 → EReal) (q : Fin 2048) (r : Fin 512) (e : Fin 64)
    (hq : q.val = (i 1).val * 512 + r.val) (hQ : ∀ e', Q q e' = x0 (ix3 0 r e')) :
    k1_pay1 (F := Ideal) i x0 x1 x2 (ix3 0 r e)
      = Cert.Spec.headAttn Q (fun k e' => x1 (ix3 0 k e')) (fun k e' => x2 (ix3 0 k e')) q e := by
  have hM : ∀ k : Fin 2048, (maskedV i (scoresV x0 x1) (ix2 r k) : EReal)
      = Cert.Spec.masked Q (fun k e' => x1 (ix3 0 k e')) q k := fun k => by
    rw [maskedV_apply, scoresV_apply]
    unfold Cert.Spec.masked Cert.Spec.score
    simp only [hq, hQ]
  rw [pay_eq_stages, outV_apply]
  unfold Cert.Spec.headAttn
  refine Finset.sum_congr rfl fun k _ => ?_
  refine congrArg (· * (x2 (ix3 0 k e) : EReal)) ?_
  rw [softmax_row _ r _ hM k]
  rfl

end Cert.KernelIdeal.Reg1

end
-- ==== Proof.Reg1Value.lean ====
/-
  The attention kernel's output array.

  The kernel runs on a 64 × 4 grid: point t works on slab t / 4 (one batch–head pair) and on the block of 512
  query rows number t mod 4; it loads that block of queries and the slab's whole key and value matrices, and
  stores 512 rows of output. Each stored entry is the causal softmax attention of the slab at its own global
  query row (the payload lemma), so the block a point writes back is the matching block of ONE array function,
  `attnArr`; the 256 blocks tile the [64, 2048, 64] array — (g, q, e) lies in the block of point g · 4 + q / 512 —
  hence the array ends holding `attnArr` everywhere.
-/
import proofs.«167086_j40114994544681_1_alg».proof.Proof.FrameKernelIdeal
import proofs.«167086_j40114994544681_1_alg».proof.Proof.Spec
import proofs.«167086_j40114994544681_1_alg».proof.Proof.Reg1Payload
import Idealize.ShloMosaic.Lib.Pipeline.Value
import Idealize.ShloMosaic.Lib.ValueIdx

set_option maxRecDepth 16384

noncomputable section

open scoped BigOperators

namespace Cert.KernelIdeal.Reg1

open Idealize.ShloMosaic Idealize.ShloMosaic.TcCoe Idealize.SL.Sem Idealize.ShloMosaic.ValueIdx
open Cert.KernelIdeal Cert.KernelIdeal.Gen Cert.KernelIdeal.GenP Cert.Spec

variable (V : (c : Dev nD) → (b : Ref sig .tc) → Buf (Elt Ideal) ((c : Thread nD τ).loc b)) (c : Dev nD)

theorem hz3 : (![0, 0, 0] : Fin 3 → Nat) = fun _ => 0 := funext fun a => by fin_cases a <;> rfl

/-- What the attention kernel's output array ends holding: slab g, row q, lane e is the causal softmax attention of
    slab g of the query, key and value arrays the region finds, at (q, e). -/
def attnArr : S64x2048x64.Idx → EReal := fun i =>
  headAttn (fun t' e' => arr S64x2048x64 (V c main_v10) (ix3 (i 0) t' e'))
           (fun t' e' => arr S64x2048x64 (V c main_v13) (ix3 (i 0) t' e'))
           (fun t' e' => arr S64x2048x64 (V c main_v16) (ix3 (i 0) t' e')) (i 1) (i 2)

/-- The index maps over the 64 × 4 grid: point t is slab t / 4, query block t mod 4; the query and output blocks
    sit at (slab, block, 0), the key and value blocks at (slab, 0, 0). -/
theorem idx_facts : ∀ t : Fin cfg1.N,
    win1_3.index t (0 : Fin 3) = t.val / 4 ∧ win1_3.index t (1 : Fin 3) = t.val % 4 ∧ win1_3.index t (2 : Fin 3) = 0
    ∧ win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = 0 ∧ win1_2.index t (2 : Fin 3) = 0
    ∧ ((grid1.coords t) (1 : Fin 2)).val = t.val % 4 :=
  (by decide +kernel : ∀ t : Fin grid1.N, _)

/-- The body's stored value at an index of the block, for any query matrix that agrees with the query block at the
    row in question. -/
theorem pay_at (i : grid1.Coords) (x0 : Vec Ideal S1x512x64 .bf16) (x1 x2 : Vec Ideal S1x2048x64 .bf16)
    (Q K Vv : Fin 2048 → Fin 64 → EReal) (q : Fin 2048) (e : Fin 64) (y : S1x512x64.Idx)
    (hq : q.val = (i 1).val * 512 + (y 1).val) (he : e.val = (y 2).val)
    (hQ : ∀ e', Q q e' = x0 (ix3 0 ⟨(y 1).val, (y 1).isLt⟩ e'))
    (hK : K = fun k e' => x1 (ix3 0 k e')) (hV : Vv = fun k e' => x2 (ix3 0 k e')) :
    k1_pay1 (F := Ideal) i x0 x1 x2 y = headAttn Q K Vv q e := by
  subst hK hV
  have hy : y = ix3 0 ⟨(y 1).val, (y 1).isLt⟩ e := by
    funext a
    match a with
    | ⟨0, h0⟩ => exact Fin.ext (by have h : (y ⟨0, h0⟩).val < 1 := (y ⟨0, h0⟩).isLt; show (y ⟨0, h0⟩).val = 0; omega)
    | ⟨1, _⟩ => rfl
    | ⟨2, _⟩ => exact Fin.ext he.symm
  rw [hy]
  exact payload_apply i x0 x1 x2 Q q ⟨(y 1).val, (y 1).isLt⟩ e hq hQ

/-- WHAT POINT t WRITES BACK is block t of `attnArr`. -/
theorem flushed_eq (t : Fin cfg1.N) :
    (dat1 (F := Ideal) V c).flushed 3 t = ((cfg1.win 3).blk t).view.read (Elt Ideal) (attnArr V c) := by
  show (cfg1.win 3).cut (grid1.coords t) ((dat1 (F := Ideal) V c).after 3 t) = _
  rw [after1_3]
  unfold out1_3
  rw [View.canon_unit_zero hz3]
  simp only [View.ld_unit_zero (S := S1x512x64) hz3, View.ld_unit_zero (S := S1x2048x64) hz3]
  obtain ⟨o0, o1, o2, a0, a1, a2, b0, b1, b2, c0, c1, c2, hc⟩ := idx_facts t
  funext j
  have hj0 : (j 0).val < 1 := (j 0).isLt
  have hj1 : (j 1).val < 512 := (j 1).isLt
  have hj2 : (j 2).val < 64 := (j 2).isLt
  refine (pay_at (grid1.coords t) (iblk1 V c 0 t) (iblk1 V c 1 t) (iblk1 V c 2 t)
    (fun t' e' => arr S64x2048x64 (V c main_v10) (ix3 ((((cfg1.win 3).blk t).view.emb j) 0) t' e'))
    (fun t' e' => arr S64x2048x64 (V c main_v13) (ix3 ((((cfg1.win 3).blk t).view.emb j) 0) t' e'))
    (fun t' e' => arr S64x2048x64 (V c main_v16) (ix3 ((((cfg1.win 3).blk t).view.emb j) 0) t' e'))
    ((((cfg1.win 3).blk t).view.emb j) 1) ((((cfg1.win 3).blk t).view.emb j) 2) j ?_ ?_ ?_ ?_ ?_).trans ?_
  · show win1_3.index t (1 : Fin 3) * 512 + 1 * (j 1).val = ((grid1.coords t) (1 : Fin 2)).val * 512 + (j 1).val
    omega
  · show win1_3.index t (2 : Fin 3) * 64 + 1 * (j 2).val = (j 2).val
    omega
  · intro e'
    show V c main_v10 (ix3 ((((cfg1.win 3).blk t).view.emb j) 0) ((((cfg1.win 3).blk t).view.emb j) 1) e')
      = V c main_v10 (((cfg1.win 0).blk t).view.emb (ix3 0 ⟨(j 1).val, (j 1).isLt⟩ e'))
    refine congrArg _ (funext fun a => Fin.ext ?_)
    match a with
    | ⟨0, _⟩ => show win1_3.index t (0 : Fin 3) * 1 + 1 * (j 0).val = win1_0.index t (0 : Fin 3) * 1 + 1 * 0; omega
    | ⟨1, _⟩ => show win1_3.index t (1 : Fin 3) * 512 + 1 * (j 1).val = win1_0.index t (1 : Fin 3) * 512 + 1 * (j 1).val; omega
    | ⟨2, _⟩ => show e'.val = win1_0.index t (2 : Fin 3) * 64 + 1 * e'.val; omega
  · funext k e'
    show V c main_v13 (ix3 ((((cfg1.win 3).blk t).view.emb j) 0) k e')
      = V c main_v13 (((cfg1.win 1).blk t).view.emb (ix3 0 k e'))
    refine congrArg _ (funext fun a => Fin.ext ?_)
    match a with
    | ⟨0, _⟩ => show win1_3.index t (0 : Fin 3) * 1 + 1 * (j 0).val = win1_1.index t (0 : Fin 3) * 1 + 1 * 0; omega
    | ⟨1, _⟩ => show k.val = win1_1.index t (1 : Fin 3) * 2048 + 1 * k.val; omega
    | ⟨2, _⟩ => show e'.val = win1_1.index t (2 : Fin 3) * 64 + 1 * e'.val; omega
  · funext k e'
    show V c main_v16 (ix3 ((((cfg1.win 3).blk t).view.emb j) 0) k e')
      = V c main_v16 (((cfg1.win 2).blk t).view.emb (ix3 0 k e'))
    refine congrArg _ (funext fun a => Fin.ext ?_)
    match a with
    | ⟨0, _⟩ => show win1_3.index t (0 : Fin 3) * 1 + 1 * (j 0).val = win1_2.index t (0 : Fin 3) * 1 + 1 * 0; omega
    | ⟨1, _⟩ => show k.val = win1_2.index t (1 : Fin 3) * 2048 + 1 * k.val; omega
    | ⟨2, _⟩ => show e'.val = win1_2.index t (2 : Fin 3) * 64 + 1 * e'.val; omega
  · rfl

/-- An index of the array is in point t's block iff each coordinate is in the block's range on its axis. -/
theorem mem_blk (t : Fin cfg1.N) (i : S64x2048x64.Idx) :
    i ∈ ((cfg1.win 3).blk t).view.set ↔ ∀ a : Fin 3, win1_3.index t a * S1x512x64.size a ≤ (i a).val
      ∧ (i a).val < win1_3.index t a * S1x512x64.size a + S1x512x64.size a := by
  show i ∈ ((View.whole main_v17).slice (win1_3.rect t)).set ↔ _
  rw [View.set_slice_whole, Rect.mem_set_unit]
  exact Iff.rfl

/-- Every index (g, q, e) lies in the block of the point g · 4 + q / 512, which writes back. -/
theorem cover (i : S64x2048x64.Idx) :
    ∃ t : Fin cfg1.N, (cfg1.win 3).flush t = true ∧ i ∈ ((cfg1.win 3).blk t).view.set := by
  have h0 : (i 0).val < 64 := (i 0).isLt
  have h1 : (i 1).val < 2048 := (i 1).isLt
  have h2 : (i 2).val < 64 := (i 2).isLt
  have hN : (i 0).val * 4 + (i 1).val / 512 < cfg1.N := by show _ < grid1.N; rw [N_1]; omega
  refine ⟨⟨(i 0).val * 4 + (i 1).val / 512, hN⟩, flush1_3 _, ?_⟩
  obtain ⟨o0, o1, o2, -⟩ := idx_facts ⟨(i 0).val * 4 + (i 1).val / 512, hN⟩
  rw [mem_blk]
  intro a
  match a with
  | ⟨0, _⟩ =>
    show win1_3.index ⟨(i 0).val * 4 + (i 1).val / 512, hN⟩ (0 : Fin 3) * 1 ≤ (i 0).val
      ∧ (i 0).val < win1_3.index ⟨(i 0).val * 4 + (i 1).val / 512, hN⟩ (0 : Fin 3) * 1 + 1
    rw [o0]; show ((i 0).val * 4 + (i 1).val / 512) / 4 * 1 ≤ (i 0).val ∧ (i 0).val < ((i 0).val * 4 + (i 1).val / 512) / 4 * 1 + 1; omega
  | ⟨1, _⟩ =>
    show win1_3.index ⟨(i 0).val * 4 + (i 1).val / 512, hN⟩ (1 : Fin 3) * 512 ≤ (i 1).val
      ∧ (i 1).val < win1_3.index ⟨(i 0).val * 4 + (i 1).val / 512, hN⟩ (1 : Fin 3) * 512 + 512
    rw [o1]; show ((i 0).val * 4 + (i 1).val / 512) % 4 * 512 ≤ (i 1).val ∧ (i 1).val < ((i 0).val * 4 + (i 1).val / 512) % 4 * 512 + 512; omega
  | ⟨2, _⟩ =>
    show win1_3.index ⟨(i 0).val * 4 + (i 1).val / 512, hN⟩ (2 : Fin 3) * 64 ≤ (i 2).val
      ∧ (i 2).val < win1_3.index ⟨(i 0).val * 4 + (i 1).val / 512, hN⟩ (2 : Fin 3) * 64 + 64
    rw [o2]; omega

/-- The attention kernel's output array after its run. -/
theorem final : (dat1 (F := Ideal) V c).arrAt 3 cfg1.N = attnArr V c :=
  (dat1 (F := Ideal) V c).arrAt_eq_of_cover 3 (attnArr V c) (fun t _ => flushed_eq V c t) (cover)

/-- Read at (g, q, e): the causal softmax attention of slab g of the query, key and value arrays. -/
theorem value (g : Fin 64) (q : Fin 2048) (e : Fin 64) :
    arr S64x2048x64 ((dat1 (F := Ideal) V c).arrAt 3 cfg1.N) (ix3 g q e)
      = headAttn (fun t' e' => arr S64x2048x64 (V c main_v10) (ix3 g t' e'))
                 (fun t' e' => arr S64x2048x64 (V c main_v13) (ix3 g t' e'))
                 (fun t' e' => arr S64x2048x64 (V c main_v16) (ix3 g t' e')) q e := by
  rw [show arr S64x2048x64 ((dat1 (F := Ideal) V c).arrAt 3 cfg1.N) = attnArr V c from final V c]
  rfl

end Cert.KernelIdeal.Reg1

end
-- ==== Proof.Reg2Value.lean ====
/-
  The last matrix kernel: every row of the merged attention output against every row of the output
  weight, plus the bias.

  The kernel runs over 16 grid points. Point t holds rows 512·t … 512·t + 511 of the left matrix
  (8192 × 1024), the whole right matrix (1024 × 1024), the whole bias vector (1024), and writes rows
  512·t … 512·t + 511 of the result (8192 × 1024). Its body is one block product into a zero
  accumulator, to which the bias is added as a row repeated down the block; so entry (p, j) of the
  block it stores is (∑ k, left(p, k) · right(j, k)) + bias(j). The sixteen row blocks tile the result,
  so entry (r, d) of the whole result is (∑ k, left(r, k) · right(d, k)) + bias(d), whatever the
  region found in the three operand arrays.
-/
import proofs.«167086_j40114994544681_1_alg».proof.Proof.FrameKernelIdeal
import proofs.«167086_j40114994544681_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Reg2

open Idealize.ShloMosaic Idealize.ShloMosaic.TcCoe Idealize.SL.Sem Idealize.ShloMosaic.ValueIdx
open Cert.KernelIdeal Cert.KernelIdeal.Gen Cert.KernelIdeal.GenP
open Idealize.ShloMosaic.Pipeline (Dat)
open Cert.Spec (arr)

/-! ## The block product plus the bias row, at an entry -/

/-- The block product's dimension numbers: both operands contract their second axis. -/
abbrev dims := dot_S512x1024_S1024x1024_S512x1024_1_1_0_0_n_n

/-- The left operand's row is the output's row. -/
theorem lhs_row (i : S512x1024.Idx) (q : dims.contr.Idx) : (dims.lhsIdx i q 0).val = (i 0).val := by
  unfold DotDims.lhsIdx
  rw [dif_neg (show ¬(0 : Fin S512x1024.rank) ∈ dims.lhsBatch by decide), dif_pos (show (0 : Fin S512x1024.rank) ∈ dims.lhsNonContracting by decide)]
  rfl

/-- The left operand's column is the contraction position. -/
theorem lhs_col (i : S512x1024.Idx) (q : dims.contr.Idx) : (dims.lhsIdx i q 1).val = (q ⟨0, by decide⟩).val :=
  dims.lhsIdx_val_of_single rfl i q

/-- The right operand's row is the output's column. -/
theorem rhs_row (i : S512x1024.Idx) (q : dims.contr.Idx) : (dims.rhsIdx i q 0).val = (i 1).val := by
  unfold DotDims.rhsIdx
  rw [dif_neg (show ¬(0 : Fin S1024x1024.rank) ∈ dims.rhsBatch by decide), dif_pos (show (0 : Fin S1024x1024.rank) ∈ dims.rhsNonContracting by decide)]
  rfl

/-- The right operand's column is the contraction position. -/
theorem rhs_col (i : S512x1024.Idx) (q : dims.contr.Idx) : (dims.rhsIdx i q 1).val = (q ⟨0, by decide⟩).val :=
  dims.rhsIdx_val_of_single rfl i q

/-- Entry (p, j) of the block product alone. -/
theorem matmul_apply (x0 : FVec Ideal S512x1024 .bf16) (x1 : FVec Ideal S1024x1024 .bf16) (p : Fin 512) (j : Fin 1024) :
    FloatOps.matmul dims none x0 x1 (constant (F := Ideal) S512x1024 .f32 0x00000000#32) (ix2 p j)
      = ∑ k : Fin 1024, x0 (ix2 p k) * x1 (ix2 j k) := by
  rw [Ideal.matmul_constant_zero_apply, ← Equiv.sum_comp (contrEquiv1 dims 1024 rfl rfl).symm]
  refine Finset.sum_congr rfl fun k _ => ?_
  have hk := contrEquiv1_symm_val dims 1024 rfl rfl k
  have el : dims.lhsIdx (ix2 p j) ((contrEquiv1 dims 1024 rfl rfl).symm k) = ix2 p k := funext fun a => Fin.ext (by
    match a with
    | ⟨0, _⟩ => exact lhs_row _ _
    | ⟨1, _⟩ => exact (lhs_col _ _).trans hk)
  have er : dims.rhsIdx (ix2 p j) ((contrEquiv1 dims 1024 rfl rfl).symm k) = ix2 j k := funext fun a => Fin.ext (by
    match a with
    | ⟨0, _⟩ => exact rhs_row _ _
    | ⟨1, _⟩ => exact (rhs_col _ _).trans hk)
  rw [el, er]

/-- Entry (p, j) of the stored block: row p of the left block against row j of the right block, plus
    entry j of the bias. -/
theorem pay_apply (x0 : Vec Ideal S512x1024 .bf16) (x1 : Vec Ideal S1024x1024 .bf16) (x2 : Vec Ideal S1024 .f32)
    (p : Fin 512) (j : Fin 1024) :
    k2_pay1 (F := Ideal) x0 x1 x2 (ix2 p j) = (∑ k : Fin 1024, x0 (ix2 p k) * x1 (ix2 j k)) + x2 (ix1 j) := by
  unfold k2_pay1
  simp only [shapeCast_self, matmul]
  rw [addf_apply, broadcastTo_1b_ab_apply, shapeCast_a_1a_apply, matmul_apply]

/-! ## The whole result as one function of the three operand arrays -/

/-- Entry (r, d) of the product of `a` (8192 × 1024) with the transpose of `b` (1024 × 1024), plus `bias` at d. -/
def prodBias (a : S8192x1024.Idx → EReal) (b : S1024x1024.Idx → EReal) (bias : S1024.Idx → EReal) : S8192x1024.Idx → EReal :=
  fun i => (∑ k : Fin 1024, a (ix2 (⟨(i 0).val, (i 0).isLt⟩ : Fin 8192) k) * b (ix2 (⟨(i 1).val, (i 1).isLt⟩ : Fin 1024) k))
    + bias (ix1 (⟨(i 1).val, (i 1).isLt⟩ : Fin 1024))

theorem prodBias_apply (a : S8192x1024.Idx → EReal) (b : S1024x1024.Idx → EReal) (bias : S1024.Idx → EReal) (r : Fin 8192) (d : Fin 1024) :
    prodBias a b bias (ix2 r d) = (∑ k : Fin 1024, a (ix2 r k) * b (ix2 d k)) + bias (ix1 d) := rfl

/-! ## Which rows each grid point holds -/

theorem hz : (![0, 0] : Fin 2 → Nat) = fun _ => 0 := funext fun a => by fin_cases a <;> rfl

theorem hz1 : (![0] : Fin 1 → Nat) = fun _ => 0 := funext fun a => by fin_cases a; rfl

/-- The index maps over the grid: point t holds row block t of the left operand and of the result, the
    whole right operand and the whole bias. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

section
variable (V : (c : Dev nD) → (b : Ref sig .tc) → Buf (Elt Ideal) ((c : Thread nD τ).loc b))

/-- Row p of the left block at point t is row 512·t + p of the left array. -/
theorem left_block (c : Dev nD) (t : Fin cfg2.N) (p : Fin 512) (k : Fin 1024) (r : Fin 8192) (hr : r.val = 512 * t.val + p.val) :
    (iblk2 V c 0 t : Vec Ideal S512x1024 .bf16) (ix2 p k) = arr S8192x1024 (V c main_v21) (ix2 r k) := by
  obtain ⟨e0, e1, -⟩ := idx_facts t
  unfold iblk2
  rw [View.read_apply]
  show V c main_v21 _ = V c main_v21 _
  congr 1
  funext a
  apply Fin.ext
  match a with
  | ⟨0, _⟩ => show win2_0.index t (0 : Fin 2) * 512 + 1 * p.val = r.val; rw [e0, hr]; omega
  | ⟨1, _⟩ => show win2_0.index t (1 : Fin 2) * 1024 + 1 * k.val = k.val; rw [e1]; omega

/-- The right block at every point is the whole right array. -/
theorem right_block (c : Dev nD) (t : Fin cfg2.N) (j : Fin 1024) (k : Fin 1024) :
    (iblk2 V c 1 t : Vec Ideal S1024x1024 .bf16) (ix2 j k) = arr S1024x1024 (V c main_v22) (ix2 j k) := by
  obtain ⟨-, -, e2, e3, -⟩ := idx_facts t
  unfold iblk2
  rw [View.read_apply]
  show V c main_v22 _ = V c main_v22 _
  congr 1
  funext a
  apply Fin.ext
  match a with
  | ⟨0, _⟩ => show win2_1.index t (0 : Fin 2) * 1024 + 1 * j.val = j.val; rw [e2]; omega
  | ⟨1, _⟩ => show win2_1.index t (1 : Fin 2) * 1024 + 1 * k.val = k.val; rw [e3]; omega

/-- The bias block at every point is the whole bias vector. -/
theorem bias_block (c : Dev nD) (t : Fin cfg2.N) (j : Fin 1024) :
    (iblk2 V c 2 t : Vec Ideal S1024 .f32) (ix1 j) = arr S1024 (V c main_arg3) (ix1 j) := by
  obtain ⟨-, -, -, -, e4, -⟩ := idx_facts t
  unfold iblk2
  rw [View.read_apply]
  show V c main_arg3 _ = V c main_arg3 _
  congr 1
  funext a
  apply Fin.ext
  match a with
  | ⟨0, _⟩ => show win2_2.index t (0 : Fin 1) * 1024 + 1 * j.val = j.val; rw [e4]; omega

/-! ## What each grid point writes back -/

/-- An entry of the block stored at point t, against the entry of the whole result it lands on:
    for blocks that are rows 512·T … of `a`, all of `b` and all of `bias`. -/
theorem entry_eq (a : S8192x1024.Idx → EReal) (b : S1024x1024.Idx → EReal) (bias : S1024.Idx → EReal)
    (x0 : Vec Ideal S512x1024 .bf16) (x1 : Vec Ideal S1024x1024 .bf16) (x2 : Vec Ideal S1024 .f32) (T : Nat)
    (h0 : ∀ (p : Fin 512) (k : Fin 1024) (r : Fin 8192), r.val = 512 * T + p.val → x0 (ix2 p k) = a (ix2 r k))
    (h1 : ∀ (j : Fin 1024) (k : Fin 1024), x1 (ix2 j k) = b (ix2 j k))
    (h2 : ∀ (j : Fin 1024), x2 (ix1 j) = bias (ix1 j))
    (p : Fin 512) (j : Fin 1024) (i : S8192x1024.Idx) (hi0 : (i 0).val = 512 * T + p.val) (hi1 : (i 1).val = j.val) :
    k2_pay1 (F := Ideal) x0 x1 x2 (ix2 p j) = prodBias a b bias i := by
  rw [pay_apply]
  unfold prodBias
  have ej : (⟨(i 1).val, (i 1).isLt⟩ : Fin 1024) = j := Fin.ext hi1
  rw [ej, h2 j]
  congr 1
  refine Finset.sum_congr rfl fun k _ => ?_
  rw [h0 p k ⟨(i 0).val, (i 0).isLt⟩ hi0, h1 j k]

/-- Point t writes back block t of the whole result of the arrays the region found. -/
theorem flushed_eq (c : Dev nD) (t : Fin cfg2.N) :
    (dat2 (F := Ideal) V c).flushed 3 t
      = ((cfg2.win 3).blk t).view.read (Elt Ideal) (prodBias (V c main_v21) (V c main_v22) (V c main_arg3)) := by
  show (cfg2.win 3).cut (grid2.coords t) ((dat2 V c).after 3 t) = _
  rw [after2_3]
  unfold out2_3
  rw [View.canon_unit_zero hz]
  simp only [View.ld_unit_zero (S := S512x1024) hz, View.ld_unit_zero (S := S1024x1024) hz, View.ld_unit_zero (S := S1024) hz1]
  obtain ⟨-, -, -, -, -, e5, e6⟩ := idx_facts t
  funext y
  show k2_pay1 (F := Ideal) (iblk2 V c 0 t) (iblk2 V c 1 t) (iblk2 V c 2 t) y
    = prodBias (V c main_v21) (V c main_v22) (V c main_arg3) (((cfg2.win 3).blk t).view.emb y)
  obtain ⟨p, j, rfl⟩ : ∃ (p : Fin 512) (j : Fin 1024), y = ix2 p j := ⟨y 0, y 1, eq_ix2 y⟩
  refine entry_eq (V c main_v21) (V c main_v22) (V c main_arg3) (iblk2 V c 0 t) (iblk2 V c 1 t) (iblk2 V c 2 t) t.val
    (fun p k r hr => left_block V c t p k r hr) (fun j k => right_block V c t j k) (fun j => bias_block V c t j) p j _ ?_ ?_
  · show win2_3.index t (0 : Fin 2) * 512 + 1 * p.val = 512 * t.val + p.val
    rw [e5]; omega
  · show win2_3.index t (1 : Fin 2) * 1024 + 1 * j.val = j.val
    rw [e6]; omega

/-! ## The sixteen row blocks tile the result -/

/-- An index is in point t's block iff each coordinate is in the block's range on its axis. -/
theorem mem_blk (t : Fin cfg2.N) (i : S8192x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v23).slice (win2_3.rect t)).set ↔ _
  rw [View.set_slice_whole, Rect.mem_set_unit]
  exact Iff.rfl

/-- Row r of the result is written by point r / 512. -/
theorem cover (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  have hN : cfg2.N = 16 := N_2
  have hlt : (i 0).val / 512 < cfg2.N := by rw [hN]; omega
  obtain ⟨-, -, -, -, -, e5, e6⟩ := idx_facts ⟨(i 0).val / 512, hlt⟩
  refine ⟨⟨(i 0).val / 512, hlt⟩, flush2_3 _, ?_⟩
  rw [mem_blk]
  intro a
  match a with
  | ⟨0, _⟩ =>
    show win2_3.index ⟨(i 0).val / 512, hlt⟩ (0 : Fin 2) * 512 ≤ (i 0).val ∧ (i 0).val < win2_3.index ⟨(i 0).val / 512, hlt⟩ (0 : Fin 2) * 512 + 512
    rw [e5]; show (i 0).val / 512 * 512 ≤ (i 0).val ∧ (i 0).val < (i 0).val / 512 * 512 + 512; omega
  | ⟨1, _⟩ =>
    show win2_3.index ⟨(i 0).val / 512, hlt⟩ (1 : Fin 2) * 1024 ≤ (i 1).val ∧ (i 1).val < win2_3.index ⟨(i 0).val / 512, hlt⟩ (1 : Fin 2) * 1024 + 1024
    rw [e6]; omega

/-- The result array after the region's run is the whole product plus the bias row. -/
theorem final (c : Dev nD) :
    (dat2 (F := Ideal) V c).arrAt 3 cfg2.N = prodBias (V c main_v21) (V c main_v22) (V c main_arg3) :=
  (dat2 (F := Ideal) V c).arrAt_eq_of_cover 3 (prodBias (V c main_v21) (V c main_v22) (V c main_arg3))
    (fun t _ => flushed_eq V c t) cover

/-- Entry (r, d) of the result array after the region's run. -/
theorem value (c : Dev nD) (r : Fin 8192) (d : Fin 1024) :
    arr S8192x1024 ((dat2 (F := Ideal) V c).arrAt 3 cfg2.N) (ix2 r d)
      = (∑ k : Fin 1024, arr S8192x1024 (V c main_v21) (ix2 r k) * arr S1024x1024 (V c main_v22) (ix2 d k))
        + arr S1024 (V c main_arg3) (ix1 d) :=
  (congrFun (final V c) (ix2 r d)).trans (prodBias_apply _ _ _ r d)
end

end Cert.KernelIdeal.Reg2

end
-- ==== Proof.HostGlue0.lean ====
/-
  The host operations before the first matrix kernel, read at an index.

  The activation x : [4, 2048, 1024] is flattened to the [8192, 1024] matrix whose row b·2048 + t is
  x(b, t, ·): a reshape keeps the row-major position, so entry (r, k) of the flat matrix is
  x(r / 2048, r mod 2048, k). The change of float format that follows it, and the one applied to the
  fused weight, are the identity over the extended reals, so the kernel's two input matrices are the
  flattened activation and the weight itself.
-/
import proofs.«167086_j40114994544681_1_alg».proof.Proof.FrameKernelIdeal
import proofs.«167086_j40114994544681_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Glue

open Idealize.ShloMosaic Idealize.ShloMosaic.TcCoe Idealize.SL.Sem Idealize.ShloMosaic.ValueIdx
open Cert.KernelIdeal Cert.KernelIdeal.Gen Cert.KernelIdeal.GenP
open Cert.Spec Cert.Spec.Layout

/-- Flattening the two leading axes: position (r, k) of the [8192, 1024] matrix is position
    (r / 2048, r mod 2048, k) of the [4, 2048, 1024] array, both being r·1024 + k in row-major order. -/
theorem flat_read (x : FVec Ideal S4x2048x1024 .f32) (hc : S4x2048x1024.ShapeCasts S8192x1024)
    (hb : FTy.bits .bf16 < FTy.bits .f32) (r : Fin 8192) (k : Fin 1024) :
    (truncf .bf16 (shapeCast S8192x1024 x hc) hb : FVec Ideal S8192x1024 .bf16) (ix2 r k)
      = x (ix3 (rowB r) (rowT r) k) := by
  rw [truncf_apply]
  refine shapeCast_apply x hc (ix2 r k) (ix3 (rowB r) (rowT r) k) ?_
  rewrite [Shape.rowMajor_val_three, Shape.rowMajor_val_two]
  have hr : r.val < 8192 := r.isLt
  show (r.val / 2048 * 2048 + r.val % 2048) * 1024 + k.val = r.val * 1024 + k.val
  omega

variable (m : (ℓ : Loc nD τ sig) → Buf (Elt Ideal) ℓ) (ρ : Dev nD → PrngReg) (c : Dev nD)

/-- The flattened activation: row r, column k is x(r / 2048, r mod 2048, k). -/
theorem v1_apply (r : Fin 8192) (k : Fin 1024) :
    arr S8192x1024 (V1 m ρ c main_v1) (ix2 r k)
      = arr S4x2048x1024 (m ((c : Thread nD τ).loc main_arg0)) (ix3 (rowB r) (rowT r) k) := by
  have e : V1 m ρ c main_v1
      = truncf (F := Ideal) (s := S8192x1024) (φ := .f32) .bf16
          (shapeCast S8192x1024 (arr S4x2048x1024 (m ((c : Thread nD τ).loc main_arg0))) shapeCasts_S4x2048x1024_S8192x1024)
          bitsLt_bf16_f32 := by
    show StableHlo.after hostOps0 (W0 m ρ c) (Proc.devRef .tc main_v1) = _
    after_results <;> rfl
  exact (congrFun e (ix2 r k)).trans (flat_read _ _ _ r k)

/-- The fused weight reaches the kernel unchanged. -/
theorem v2_apply (d : Fin 3072) (k : Fin 1024) :
    arr S3072x1024 (V1 m ρ c main_v2) (ix2 d k)
      = arr S3072x1024 (m ((c : Thread nD τ).loc main_arg1)) (ix2 d k) := by
  have e : V1 m ρ c main_v2
      = truncf (F := Ideal) (s := S3072x1024) (φ := .f32) .bf16
          (arr S3072x1024 (m ((c : Thread nD τ).loc main_arg1))) bitsLt_bf16_f32 := by
    show StableHlo.after hostOps0 (W0 m ρ c) (Proc.devRef .tc main_v2) = _
    after_results <;> rfl
  exact (congrFun e (ix2 d k)).trans (truncf_apply _ _ _)

end Cert.KernelIdeal.Glue

end
-- ==== Proof.HostGlue1.lean ====
/-
  The host operations between the projection kernel and the attention kernel, read at an index.

  The projection's result is the [8192, 3072] matrix whose row b·2048 + t holds, for every head h, the
  192 columns h·192 … h·192 + 191: 64 query lanes, then 64 key lanes, then 64 value lanes. The host
  views it as [4, 2048, 16, 192], cuts the last axis at 0, 64 or 128 (queries, keys, values), swaps the
  position and head axes, and flattens (batch, head) into one slab index g = b·16 + h. Each step moves
  an entry without changing it, so entry (g, t, e) of a cut is entry
  ((g / 16)·2048 + t, (g mod 16)·192 + o + e) of the projection, o the cut's offset. The change of float
  format at the end is the identity over the extended reals.
-/
import proofs.«167086_j40114994544681_1_alg».proof.Proof.FrameKernelIdeal
import proofs.«167086_j40114994544681_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Glue

open Idealize.ShloMosaic Idealize.ShloMosaic.TcCoe Idealize.SL.Sem Idealize.ShloMosaic.ValueIdx
open Cert.KernelIdeal Cert.KernelIdeal.Gen Cert.KernelIdeal.GenP
open Cert.Spec Cert.Spec.Layout

/-- One cut of the projection, slab by slab: reshape to [4, 2048, 16, 192], the slice of 64 lanes at offset
    o of the last axis, the swap of axes 1 and 2, the reshape to [64, 2048, 64], read at (g, t, e). The two
    reshapes keep the row-major position (16·192 = 3072 and slab = batch·16 + head), the slice adds o to the
    last coordinate and the swap exchanges the two middle coordinates. -/
theorem head_read (x : FVec Ideal S8192x3072 .f32) (o : Nat) (ho : o + 64 ≤ 192)
    (h1 : S8192x3072.ShapeCasts S4x2048x16x192)
    (h2 : S4x2048x16x192.Slices ![0, 0, 0, o] S4x2048x16x64)
    (h3 : S4x2048x16x64.Transposes [0, 2, 1, 3] S4x16x2048x64)
    (h4 : S4x16x2048x64.ShapeCasts S64x2048x64)
    (hb : FTy.bits .bf16 < FTy.bits .f32) (g : Fin 64) (t : Fin 2048) (e : Fin 64) :
    (truncf .bf16 (shapeCast S64x2048x64 (transpose S4x16x2048x64 [0, 2, 1, 3]
        (extractStridedSlice S4x2048x16x64 ![0, 0, 0, o] (shapeCast S4x2048x16x192 x h1) h2) h3) h4) hb
      : FVec Ideal S64x2048x64 .bf16) (ix3 g t e)
      = x (ix2 (flatRow (slabB g) t) (headCol (slabH g) o ho e)) := by
  have hg : g.val < 64 := g.isLt
  have ht : t.val < 2048 := t.isLt
  have he : e.val < 64 := e.isLt
  rw [truncf_apply]
  refine (shapeCast_apply _ h4 (ix3 g t e) (ix4 (slabB g) (slabH g) t e) ?_).trans ?_
  · rewrite [Shape.rowMajor_val_four, Shape.rowMajor_val_three]
    show ((g.val / 16 * 16 + g.val % 16) * 2048 + t.val) * 64 + e.val = (g.val * 2048 + t.val) * 64 + e.val
    omega
  refine (transpose_apply [0, 2, 1, 3] _ h3 (ix4 (slabB g) (slabH g) t e) (ix4 (slabB g) t (slabH g) e)
    (fun b => match b with
      | ⟨0, _⟩ => rfl
      | ⟨1, _⟩ => rfl
      | ⟨2, _⟩ => rfl
      | ⟨3, _⟩ => rfl)).trans ?_
  refine (extractStridedSlice_apply ![0, 0, 0, o] _ h2 (ix4 (slabB g) t (slabH g) e)
    (ix4 (slabB g) t (slabH g) (⟨o + e.val, by omega⟩ : Fin 192))
    (fun a => match a with
      | ⟨0, _⟩ => by show g.val / 16 = 0 + g.val / 16; omega
      | ⟨1, _⟩ => by show t.val = 0 + t.val; omega
      | ⟨2, _⟩ => by show g.val % 16 = 0 + g.val % 16; omega
      | ⟨3, _⟩ => by show o + e.val = o + e.val; rfl)).trans ?_
  refine shapeCast_apply x h1 (ix4 (slabB g) t (slabH g) (⟨o + e.val, by omega⟩ : Fin 192))
    (ix2 (flatRow (slabB g) t) (headCol (slabH g) o ho e)) ?_
  rewrite [Shape.rowMajor_val_two, Shape.rowMajor_val_four]
  show (g.val / 16 * 2048 + t.val) * 3072 + (g.val % 16 * 192 + o + e.val)
    = ((g.val / 16 * 2048 + t.val) * 16 + g.val % 16) * 192 + (o + e.val)
  omega

variable (m : (ℓ : Loc nD τ sig) → Buf (Elt Ideal) ℓ) (ρ : Dev nD → PrngReg) (c : Dev nD)

/-- The queries of slab g: lane e of row t is column (g mod 16)·192 + e of the projection's row (g / 16)·2048 + t. -/
theorem v10_apply (g : Fin 64) (t : Fin 2048) (e : Fin 64) :
    arr S64x2048x64 (V3 m ρ c main_v10) (ix3 g t e)
      = arr S8192x3072 (V2 m ρ c main_v3) (ix2 (flatRow (slabB g) t) (headCol (slabH g) 0 (by omega) e)) := by
  have e' : V3 m ρ c main_v10
      = truncf (F := Ideal) (s := S64x2048x64) (φ := .f32) .bf16
          (shapeCast S64x2048x64 (transpose S4x16x2048x64 [0, 2, 1, 3]
            (extractStridedSlice S4x2048x16x64 ![0, 0, 0, 0]
              (shapeCast S4x2048x16x192 (arr S8192x3072 (V2 m ρ c main_v3)) shapeCasts_S8192x3072_S4x2048x16x192)
              slices_S4x2048x16x192_S4x2048x16x64_0_0_0_0)
            transposes_S4x2048x16x64_S4x16x2048x64_0_2_1_3) shapeCasts_S4x16x2048x64_S64x2048x64)
          bitsLt_bf16_f32 := by
    show StableHlo.after hostOps1 (W2 m ρ c) (Proc.devRef .tc main_v10) = _
    after_results <;> rfl
  exact (congrFun e' (ix3 g t e)).trans (head_read _ 0 (by omega) _ _ _ _ _ g t e)

/-- The keys of slab g: the same rows, 64 columns further. -/
theorem v13_apply (g : Fin 64) (t : Fin 2048) (e : Fin 64) :
    arr S64x2048x64 (V3 m ρ c main_v13) (ix3 g t e)
      = arr S8192x3072 (V2 m ρ c main_v3) (ix2 (flatRow (slabB g) t) (headCol (slabH g) 64 (by omega) e)) := by
  have e' : V3 m ρ c main_v13
      = truncf (F := Ideal) (s := S64x2048x64) (φ := .f32) .bf16
          (shapeCast S64x2048x64 (transpose S4x16x2048x64 [0, 2, 1, 3]
            (extractStridedSlice S4x2048x16x64 ![0, 0, 0, 64]
              (shapeCast S4x2048x16x192 (arr S8192x3072 (V2 m ρ c main_v3)) shapeCasts_S8192x3072_S4x2048x16x192)
              slices_S4x2048x16x192_S4x2048x16x64_0_0_0_64)
            transposes_S4x2048x16x64_S4x16x2048x64_0_2_1_3) shapeCasts_S4x16x2048x64_S64x2048x64)
          bitsLt_bf16_f32 := by
    show StableHlo.after hostOps1 (W2 m ρ c) (Proc.devRef .tc main_v13) = _
    after_results <;> rfl
  exact (congrFun e' (ix3 g t e)).trans (head_read _ 64 (by omega) _ _ _ _ _ g t e)

/-- The values of slab g: the same rows, 128 columns further. -/
theorem v16_apply (g : Fin 64) (t : Fin 2048) (e : Fin 64) :
    arr S64x2048x64 (V3 m ρ c main_v16) (ix3 g t e)
      = arr S8192x3072 (V2 m ρ c main_v3) (ix2 (flatRow (slabB g) t) (headCol (slabH g) 128 (by omega) e)) := by
  have e' : V3 m ρ c main_v16
      = truncf (F := Ideal) (s := S64x2048x64) (φ := .f32) .bf16
          (shapeCast S64x2048x64 (transpose S4x16x2048x64 [0, 2, 1, 3]
            (extractStridedSlice S4x2048x16x64 ![0, 0, 0, 128]
              (shapeCast S4x2048x16x192 (arr S8192x3072 (V2 m ρ c main_v3)) shapeCasts_S8192x3072_S4x2048x16x192)
              slices_S4x2048x16x192_S4x2048x16x64_0_0_0_128)
            transposes_S4x2048x16x64_S4x16x2048x64_0_2_1_3) shapeCasts_S4x16x2048x64_S64x2048x64)
          bitsLt_bf16_f32 := by
    show StableHlo.after hostOps1 (W2 m ρ c) (Proc.devRef .tc main_v16) = _
    after_results <;> rfl
  exact (congrFun e' (ix3 g t e)).trans (head_read _ 128 (by omega) _ _ _ _ _ g t e)

end Cert.KernelIdeal.Glue

end
-- ==== Proof.HostGlue2.lean ====
/-
  The host operations between the attention kernel and the output kernel, read at an index.

  The attention kernel leaves one [2048, 64] matrix per slab g = b·16 + h. The host views the 64 slabs as
  [4, 16, 2048, 64], swaps the head and position axes and flattens to the [8192, 1024] matrix whose row
  b·2048 + t lays the sixteen heads side by side: column k belongs to head k / 64, lane k mod 64. Each
  step moves an entry without changing it, and the change of float format is the identity over the extended
  reals. The output weight and the bias are arguments that nothing before the output kernel writes, so the
  kernel finds in them what the program was launched with.
-/
import proofs.«167086_j40114994544681_1_alg».proof.Proof.FrameKernelIdeal
import proofs.«167086_j40114994544681_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Glue

open Idealize.ShloMosaic Idealize.ShloMosaic.TcCoe Idealize.SL.Sem Idealize.ShloMosaic.ValueIdx
open Cert.KernelIdeal Cert.KernelIdeal.Gen Cert.KernelIdeal.GenP
open Cert.Spec Cert.Spec.Layout

/-- The heads laid side by side again: reshape to [4, 16, 2048, 64], the swap of axes 1 and 2, the reshape
    to [8192, 1024], read at (r, k). Both reshapes keep the row-major position (row = batch·2048 + position,
    column = head·64 + lane, slab = batch·16 + head) and the swap exchanges the two middle coordinates. -/
theorem merge_read (x : FVec Ideal S64x2048x64 .f32)
    (h1 : S64x2048x64.ShapeCasts S4x16x2048x64)
    (h2 : S4x16x2048x64.Transposes [0, 2, 1, 3] S4x2048x16x64)
    (h3 : S4x2048x16x64.ShapeCasts S8192x1024)
    (hb : FTy.bits .bf16 < FTy.bits .f32) (r : Fin 8192) (k : Fin 1024) :
    (truncf .bf16 (shapeCast S8192x1024 (transpose S4x2048x16x64 [0, 2, 1, 3]
        (shapeCast S4x16x2048x64 x h1) h2) h3) hb : FVec Ideal S8192x1024 .bf16) (ix2 r k)
      = x (ix3 (slab (rowB r) (colHead k)) (rowT r) (colLane k)) := by
  have hr : r.val < 8192 := r.isLt
  have hk : k.val < 1024 := k.isLt
  rw [truncf_apply]
  refine (shapeCast_apply _ h3 (ix2 r k) (ix4 (rowB r) (rowT r) (colHead k) (colLane k)) ?_).trans ?_
  · rewrite [Shape.rowMajor_val_four, Shape.rowMajor_val_two]
    show ((r.val / 2048 * 2048 + r.val % 2048) * 16 + k.val / 64) * 64 + k.val % 64 = r.val * 1024 + k.val
    omega
  refine (transpose_apply [0, 2, 1, 3] _ h2 (ix4 (rowB r) (rowT r) (colHead k) (colLane k))
    (ix4 (rowB r) (colHead k) (rowT r) (colLane k))
    (fun b => match b with
      | ⟨0, _⟩ => rfl
      | ⟨1, _⟩ => rfl
      | ⟨2, _⟩ => rfl
      | ⟨3, _⟩ => rfl)).trans ?_
  refine shapeCast_apply x h1 (ix4 (rowB r) (colHead k) (rowT r) (colLane k))
    (ix3 (slab (rowB r) (colHead k)) (rowT r) (colLane k)) ?_
  rewrite [Shape.rowMajor_val_three, Shape.rowMajor_val_four]
  show ((r.val / 2048 * 16 + k.val / 64) * 2048 + r.val % 2048) * 64 + k.val % 64
    = ((r.val / 2048 * 16 + k.val / 64) * 2048 + r.val % 2048) * 64 + k.val % 64
  rfl

variable (m : (ℓ : Loc nD τ sig) → Buf (Elt Ideal) ℓ) (ρ : Dev nD → PrngReg) (c : Dev nD)

/-- The attended heads, merged: row r, column k is lane k mod 64 of row r mod 2048 of slab (r / 2048)·16 + k / 64. -/
theorem v21_apply (r : Fin 8192) (k : Fin 1024) :
    arr S8192x1024 (V5 m ρ c main_v21) (ix2 r k)
      = arr S64x2048x64 (V4 m ρ c main_v17) (ix3 (slab (rowB r) (colHead k)) (rowT r) (colLane k)) := by
  have e : V5 m ρ c main_v21
      = truncf (F := Ideal) (s := S8192x1024) (φ := .f32) .bf16
          (shapeCast S8192x1024 (transpose S4x2048x16x64 [0, 2, 1, 3]
            (shapeCast S4x16x2048x64 (arr S64x2048x64 (V4 m ρ c main_v17)) shapeCasts_S64x2048x64_S4x16x2048x64)
            transposes_S4x16x2048x64_S4x2048x16x64_0_2_1_3) shapeCasts_S4x2048x16x64_S8192x1024)
          bitsLt_bf16_f32 := by
    show StableHlo.after hostOps2 (W4 m ρ c) (Proc.devRef .tc main_v21) = _
    after_results <;> rfl
  exact (congrFun e (ix2 r k)).trans (merge_read _ _ _ _ _ r k)

/-- Neither kernel before the output kernel, and no host operation before it, writes the output weight: at the
    attention kernel's exit it holds what the program was launched with. -/
theorem W4_main_arg2 : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The same for the bias, one stretch of host operations further: at the output kernel's entry it holds what the
    program was launched with. -/
theorem W5_main_arg3 : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The output weight reaches the kernel unchanged. -/
theorem v22_apply (d k : Fin 1024) :
    arr S1024x1024 (V5 m ρ c main_v22) (ix2 d k)
      = arr S1024x1024 (m ((c : Thread nD τ).loc main_arg2)) (ix2 d k) := by
  have e : V5 m ρ c main_v22
      = truncf (F := Ideal) (s := S1024x1024) (φ := .f32) .bf16
          (arr S1024x1024 (W4 m ρ c (Proc.devRef .tc main_arg2))) bitsLt_bf16_f32 := by
    show StableHlo.after hostOps2 (W4 m ρ c) (Proc.devRef .tc main_v22) = _
    after_results <;> rfl
  exact ((congrFun e (ix2 d k)).trans
    (truncf_apply (s := S1024x1024) (φ := .f32) (ψ := .bf16) (arr S1024x1024 (W4 m ρ c (Proc.devRef .tc main_arg2)))
      bitsLt_bf16_f32 (ix2 d k))).trans (congrFun (W4_main_arg2 m ρ c) (ix2 d k))

/-- The bias reaches the kernel unchanged. -/
theorem arg3_apply (d : Fin 1024) :
    arr S1024 (V5 m ρ c main_arg3) (ix1 d) = arr S1024 (m ((c : Thread nD τ).loc main_arg3)) (ix1 d) :=
  congrFun (W5_main_arg3 m ρ c) (ix1 d)

end Cert.KernelIdeal.Glue

end
-- ==== Proof.HostGlue3.lean ====
/-
  The host operation after the output kernel, read at an index.

  The output kernel leaves the [8192, 1024] matrix whose row b·2048 + t is the layer's output at batch b,
  position t; the program returns it viewed as [4, 2048, 1024]. A reshape keeps the row-major position, so
  entry (b, t, d) of the result is entry (b·2048 + t, d) of the matrix.
-/
import proofs.«167086_j40114994544681_1_alg».proof.Proof.FrameKernelIdeal
import proofs.«167086_j40114994544681_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Glue

open Idealize.ShloMosaic Idealize.ShloMosaic.TcCoe Idealize.SL.Sem Idealize.ShloMosaic.ValueIdx
open Cert.KernelIdeal Cert.KernelIdeal.Gen Cert.KernelIdeal.GenP
open Cert.Spec Cert.Spec.Layout

/-- Splitting the row axis: position (b, t, d) of the [4, 2048, 1024] array is position (b·2048 + t, d) of the
    [8192, 1024] matrix. -/
theorem unflat_read (x : FVec Ideal S8192x1024 .f32) (hc : S8192x1024.ShapeCasts S4x2048x1024)
    (b : Fin 4) (t : Fin 2048) (d : Fin 1024) :
    shapeCast S4x2048x1024 x hc (ix3 b t d) = x (ix2 (flatRow b t) d) := by
  refine shapeCast_apply x hc (ix3 b t d) (ix2 (flatRow b t) d) ?_
  rewrite [Shape.rowMajor_val_two, Shape.rowMajor_val_three]
  show (b.val * 2048 + t.val) * 1024 + d.val = (b.val * 2048 + t.val) * 1024 + d.val
  rfl

variable (m : (ℓ : Loc nD τ sig) → Buf (Elt Ideal) ℓ) (ρ : Dev nD → PrngReg) (c : Dev nD)

/-- The program's result: entry (b, t, d) is entry (b·2048 + t, d) of what the output kernel leaves. -/
theorem v24_apply (b : Fin 4) (t : Fin 2048) (d : Fin 1024) :
    arr S4x2048x1024 (W7 m ρ c (Proc.devRef .tc main_v24)) (ix3 b t d)
      = arr S8192x1024 (V6 m ρ c main_v23) (ix2 (flatRow b t) d) := by
  have e : W7 m ρ c (Proc.devRef .tc main_v24)
      = shapeCast S4x2048x1024 (arr S8192x1024 (V6 m ρ c main_v23)) shapeCasts_S8192x1024_S4x2048x1024 := by
    show StableHlo.after hostOps3 (W6 m ρ c) (Proc.devRef .tc main_v24) = _
    after_results <;> rfl
  exact (congrFun e (ix3 b t d)).trans (unflat_read _ _ b t d)

end Cert.KernelIdeal.Glue

end
-- ==== Proof.HostGlue.lean ====
/-
  The host operations around the three matrix kernels, read at an index: the flattening of the activation and
  the two weights' change of float format before the first kernel; the cut of the projection into queries,
  keys and values slab by slab before the second; the merge of the attended heads, the output weight and the
  bias before the third; and the final reshape of the result. One module per stretch; this one gathers them.
-/
import proofs.«167086_j40114994544681_1_alg».proof.Proof.HostGlue0
import proofs.«167086_j40114994544681_1_alg».proof.Proof.HostGlue1
import proofs.«167086_j40114994544681_1_alg».proof.Proof.HostGlue2
import proofs.«167086_j40114994544681_1_alg».proof.Proof.HostGlue3
-- ==== Proof.KValue.lean ====
/-
  The value of the idealized kernel program: its result buffer ends holding the attention layer `Cert.Spec.G`
  of the four launched arguments.

  The chain, back to front: the result is the last kernel's output array reshaped; that array is the product of
  the merged heads with the output weight, plus the bias; the merged heads are the attention kernel's output
  array re-laid (slab b · 16 + h, row t, lane e ↦ row b · 2048 + t, column h · 64 + e); each slab is the causal
  softmax attention of that slab's queries, keys and values; those are columns h · 192 + {0, 64, 128} + e of the
  first kernel's output array, which is the fused projection of x against the QKV weight. Each link is one of the
  per-region or per-host-stretch lemmas; what is left here is that (b · 2048 + t) / 2048 = b and the like.
-/
import proofs.«167086_j40114994544681_1_alg».proof.Proof.FrameKernelIdeal
import proofs.«167086_j40114994544681_1_alg».proof.Proof.Spec
import proofs.«167086_j40114994544681_1_alg».proof.Proof.Reg0Value
import proofs.«167086_j40114994544681_1_alg».proof.Proof.Reg1Value
import proofs.«167086_j40114994544681_1_alg».proof.Proof.Reg2Value
import proofs.«167086_j40114994544681_1_alg».proof.Proof.HostGlue
import Idealize.ShloMosaic.Lib.ValueIdx

set_option maxRecDepth 16384

noncomputable section

open scoped BigOperators

namespace Cert.KernelIdeal.KValue

open Idealize.ShloMosaic Idealize.ShloMosaic.TcCoe Idealize.SL.Sem Idealize.ShloMosaic.ValueIdx
open Cert.KernelIdeal Cert.KernelIdeal.Gen Cert.KernelIdeal.GenP
open Cert.Spec Cert.Spec.Layout

variable (m : (ℓ : Loc nD τ sig) → Buf (Elt Ideal) ℓ) (ρ : Dev nD → PrngReg) (c : Dev nD)

/-- The four argument arrays as launched. -/
abbrev X : S4x2048x1024.Idx → EReal := arr S4x2048x1024 (m ((c : Thread nD τ).loc main_arg0))
abbrev Wq : S3072x1024.Idx → EReal := arr S3072x1024 (m ((c : Thread nD τ).loc main_arg1))
abbrev Wp : S1024x1024.Idx → EReal := arr S1024x1024 (m ((c : Thread nD τ).loc main_arg2))
abbrev Bp : S1024.Idx → EReal := arr S1024 (m ((c : Thread nD τ).loc main_arg3))

/-- After the projection kernel its output array is the fused projection, row (b, t) flattened. -/
theorem proj_apply (r : Fin 8192) (d : Fin 3072) :
    arr S8192x3072 (V2 m ρ c main_v3) (ix2 r d) = qkv (X m c) (Wq m c) (rowB r) (rowT r) d := by
  have h : arr S8192x3072 (V2 m ρ c main_v3) = arr S8192x3072 ((dat0 (F := Ideal) (V1 m ρ) c).arrAt 2 cfg0.N) :=
    W2_arr m ρ c 2
  rw [h, Reg0.value (V1 m ρ) c r d]
  unfold qkv
  exact Finset.sum_congr rfl fun k _ => by rw [Glue.v1_apply m ρ c r k, Glue.v2_apply m ρ c d k]

/-- After the attention kernel slab (b, h) of its output array is head h of batch b, attended. -/
theorem attn_apply (g : Fin 64) (q : Fin 2048) (e : Fin 64) :
    arr S64x2048x64 (V4 m ρ c main_v17) (ix3 g q e) = attn (X m c) (Wq m c) (slabB g) (slabH g) q e := by
  have h : arr S64x2048x64 (V4 m ρ c main_v17) = arr S64x2048x64 ((dat1 (F := Ideal) (V3 m ρ) c).arrAt 3 cfg1.N) :=
    W4_arr m ρ c 3
  rw [h, Reg1.value (V3 m ρ) c g q e]
  unfold attn
  congr 1
  · funext t' e'; rw [Glue.v10_apply m ρ c g t' e', proj_apply m ρ c, rowB_flatRow, rowT_flatRow]
  · funext t' e'; rw [Glue.v13_apply m ρ c g t' e', proj_apply m ρ c, rowB_flatRow, rowT_flatRow]
  · funext t' e'; rw [Glue.v16_apply m ρ c g t' e', proj_apply m ρ c, rowB_flatRow, rowT_flatRow]

/-- After the output kernel its array is the layer's output, row (b, t) flattened. -/
theorem out_apply (b : Fin 4) (t : Fin 2048) (d : Fin 1024) :
    arr S8192x1024 (V6 m ρ c main_v23) (ix2 (flatRow b t) d) = out (X m c) (Wq m c) (Wp m c) (Bp m c) b t d := by
  have h : arr S8192x1024 (V6 m ρ c main_v23) = arr S8192x1024 ((dat2 (F := Ideal) (V5 m ρ) c).arrAt 3 cfg2.N) :=
    W6_arr m ρ c 3
  rw [h, Reg2.value (V5 m ρ) c (flatRow b t) d, Glue.arg3_apply m ρ c d]
  unfold out merged
  refine congrArg (· + _) (Finset.sum_congr rfl fun k _ => ?_)
  rw [Glue.v21_apply m ρ c (flatRow b t) k, Glue.v22_apply m ρ c d k, attn_apply m ρ c, rowB_flatRow, rowT_flatRow, slabB_slab, slabH_slab]

/-- The result buffer's last contents are the layer `G` of the launched arguments. -/
theorem result_eq : arr S4x2048x1024 (W7 m ρ c (Proc.devRef .tc main_v24)) = G (X m c) (Wq m c) (Wp m c) (Bp m c) := by
  funext i
  obtain ⟨b, t, d, rfl⟩ : ∃ (b : Fin 4) (t : Fin 2048) (d : Fin 1024), i = ix3 b t d := ⟨i 0, i 1, i 2, eq_ix3 i⟩
  rw [Glue.v24_apply m ρ c b t d, out_apply m ρ c b t d, G_apply]

end Cert.KernelIdeal.KValue

end
-- ==== Proof.RefMask.lean ====
/-
  The causal mask of the reference, read at one (query, key) pair.

  The mask is built from two index grids: the query's row number plus zero, compared (signed, ≥) with the
  key's column number, and the outcome selects between the constant true and the constant false.  Row and
  column numbers are below 2048, far below 2^31, so the signed comparison of the 32-bit words is the
  comparison of the numbers themselves: the mask is true exactly when the key is not after the query.
-/
import proofs.«167086_j40114994544681_1_alg».proof.Proof.Gen.ReferenceIdeal.Read
import Idealize.ShloMosaic.Lib.Affine

namespace Cert.ReferenceIdeal.RefValue

open Idealize.ShloMosaic Idealize.ShloMosaic.ValueIdx Cert.ReferenceIdeal Cert.ReferenceIdeal.Gen

/-- A number below 2048, as a 32-bit word read signed, is itself. -/
theorem toInt_ofNat_small (n : Nat) (h : n < 2048) : (BitVec.ofNat 32 n).toInt = (n : Int) := by
  rw [BitVec.toInt_eq_toNat_cond, BitVec.toNat_ofNat]
  have e : n % 2 ^ 32 = n := Nat.mod_eq_of_lt (by omega)
  rw [e, if_pos (by omega)]

/-- The signed comparison "row + 0 ≥ column" of two numbers below 2048 is the comparison of the numbers. -/
theorem sge_iff (q k : Fin 2048) :
    IntOp.cmpi .sge (IntOp.addi (BitVec.ofNat 32 q.val) 0#32) (BitVec.ofNat 32 k.val) = 1#1 ↔ k.val ≤ q.val := by
  rw [IntOp.cmpi_sge, show IntOp.addi (BitVec.ofNat 32 q.val) 0#32 = BitVec.ofNat 32 q.val from BitVec.add_zero _,
    toInt_ofNat_small _ q.isLt, toInt_ofNat_small _ k.isLt]
  exact Int.ofNat_le

variable {F : FTy → Type} [FloatOps F]

/-- The mask at (q, k): true exactly when k ≤ q. -/
theorem mask_apply (q k : Fin 2048) :
    Read.val_main_v12 (F := F) (ix2 q k) = if k.val ≤ q.val then 1#1 else 0#1 := by
  rw [Read.val_main_v12_apply, Read.val_main_call0_v4_apply, Read.val_main_call0_v2_apply, Read.val_main_call0_v0_apply,
    Read.val_main_call0_v1_apply, Read.val_main_call0_c_apply, Read.val_main_call0_v3_apply, Read.val_main_v11_apply,
    Read.val_main_c_apply, Read.val_main_call0_v5_apply, Read.val_main_call0_c_0_apply]
  show Scalar.select (IntOp.cmpi .sge (IntOp.addi (BitVec.ofNat 32 q.val) 0#32) (BitVec.ofNat 32 k.val)) 1#1 0#1 = _
  by_cases h : k.val ≤ q.val
  · rw [if_pos h, (sge_iff q k).2 h, select_one]
  · rw [if_neg h, eq_zero_of_ne_one (mt (sge_iff q k).1 h), select_zero]

end Cert.ReferenceIdeal.RefValue
-- ==== Proof.RefQKV.lean ====
/-
  The three head matrices of the reference, read at an index.

  The fused projection [4, 2048, 3072] is re-read as [4, 2048, 16, 192] (column = head · 192 + lane), cut into
  three [4, 2048, 16, 64] pieces (lanes 0–63 queries, 64–127 keys, 128–191 values) and each piece has its
  position and head axes exchanged.  So entry (b, h, t, e) of each piece is the fused projection of row (b, t)
  at column h · 192 + o + e, with o = 0, 64, 128.
-/
import proofs.«167086_j40114994544681_1_alg».proof.Proof.Gen.ReferenceIdeal.Read
import proofs.«167086_j40114994544681_1_alg».proof.Proof.Spec

noncomputable section

open scoped BigOperators

namespace Cert.ReferenceIdeal.RefValue

open Idealize.ShloMosaic Idealize.ShloMosaic.ValueIdx Cert.ReferenceIdeal Cert.ReferenceIdeal.Gen

variable (x0 : (⟨S4x2048x1024, .f32⟩ : BufTy).Contents (Elt Ideal)) (x1 : (⟨S3072x1024, .f32⟩ : BufTy).Contents (Elt Ideal))

/-- Column h · 192 + j of the fused projection, j < 192. -/
def wideCol (h : Fin 16) (j : Fin 192) : Fin 3072 := ⟨h.val * 192 + j.val, by have := h.isLt; have := j.isLt; omega⟩

/-- The re-read projection at (b, t, h, j) is the fused projection of row (b, t) at column h · 192 + j. -/
theorem wide_apply (b : Fin 4) (t : Fin 2048) (h : Fin 16) (j : Fin 192) :
    Read.val_main_v1 (F := Ideal) x0 x1 (ix4 b t h j) = Cert.Spec.qkv x0 x1 b t (wideCol h j) := by
  rw [Read.val_main_v1_apply, Read.val_main_v0_apply]
  unfold Cert.Spec.qkv
  refine Finset.sum_congr rfl fun c _ => ?_
  have hb := b.isLt; have ht := t.isLt; have hh := h.isLt; have hj := j.isLt
  have el : Read.lidx_main_v0 (Read.idx_main_v1 (ix4 b t h j)) c = ix3 b t c := funext fun a => Fin.ext (by
    match a with
    | ⟨0, _⟩ => show (((b.val * 2048 + t.val) * 16 + h.val) * 192 + j.val) / 6291456 = b.val; omega
    | ⟨1, _⟩ => show (((b.val * 2048 + t.val) * 16 + h.val) * 192 + j.val) / 3072 % 2048 = t.val; omega
    | ⟨2, _⟩ => rfl)
  have er : Read.ridx_main_v0 (Read.idx_main_v1 (ix4 b t h j)) c = ix2 (wideCol h j) c := funext fun a => Fin.ext (by
    match a with
    | ⟨0, _⟩ => show (((b.val * 2048 + t.val) * 16 + h.val) * 192 + j.val) % 3072 = h.val * 192 + j.val; omega
    | ⟨1, _⟩ => rfl)
  rw [el, er]

/-- Lane o + e of a head's 192 columns. -/
def lane (o : Nat) (ho : o + 64 ≤ 192) (e : Fin 64) : Fin 192 := ⟨o + e.val, by have := e.isLt; omega⟩

theorem wideCol_lane (h : Fin 16) (o : Nat) (ho : o + 64 ≤ 192) (e : Fin 64) :
    wideCol h (lane o ho e) = Cert.Spec.headCol h o ho e := Fin.ext (by
  show h.val * 192 + (o + e.val) = h.val * 192 + o + e.val; omega)

/-- The query piece at (b, h, t, e). -/
theorem queries_apply (b : Fin 4) (h : Fin 16) (t : Fin 2048) (e : Fin 64) :
    Read.val_main_v5 (F := Ideal) x0 x1 (ix4 b h t e) = Cert.Spec.qkv x0 x1 b t (Cert.Spec.headCol h 0 (by omega) e) := by
  rw [Read.val_main_v5_apply, Read.val_main_v2_apply, ← wideCol_lane h 0 (by omega) e, ← wide_apply]
  exact congrArg (Read.val_main_v1 (F := Ideal) x0 x1) (funext fun a => Fin.ext (by
    match a with
    | ⟨0, _⟩ => rfl
    | ⟨1, _⟩ => rfl
    | ⟨2, _⟩ => rfl
    | ⟨3, _⟩ => show e.val = 0 + e.val; omega))

/-- The key piece at (b, h, t, e). -/
theorem keys_apply (b : Fin 4) (h : Fin 16) (t : Fin 2048) (e : Fin 64) :
    Read.val_main_v6 (F := Ideal) x0 x1 (ix4 b h t e) = Cert.Spec.qkv x0 x1 b t (Cert.Spec.headCol h 64 (by omega) e) := by
  rw [Read.val_main_v6_apply, Read.val_main_v3_apply, ← wideCol_lane h 64 (by omega) e, ← wide_apply]
  exact congrArg (Read.val_main_v1 (F := Ideal) x0 x1) (funext fun a => Fin.ext (by
    match a with
    | ⟨0, _⟩ => rfl
    | ⟨1, _⟩ => rfl
    | ⟨2, _⟩ => rfl
    | ⟨3, _⟩ => rfl))

/-- The value piece at (b, h, t, e). -/
theorem values_apply (b : Fin 4) (h : Fin 16) (t : Fin 2048) (e : Fin 64) :
    Read.val_main_v7 (F := Ideal) x0 x1 (ix4 b h t e) = Cert.Spec.qkv x0 x1 b t (Cert.Spec.headCol h 128 (by omega) e) := by
  rw [Read.val_main_v7_apply, Read.val_main_v4_apply, ← wideCol_lane h 128 (by omega) e, ← wide_apply]
  exact congrArg (Read.val_main_v1 (F := Ideal) x0 x1) (funext fun a => Fin.ext (by
    match a with
    | ⟨0, _⟩ => rfl
    | ⟨1, _⟩ => rfl
    | ⟨2, _⟩ => rfl
    | ⟨3, _⟩ => rfl))

end Cert.ReferenceIdeal.RefValue

end
-- ==== Proof.RefScore.lean ====
/-
  The masked scores of the reference, read at an index.

  At (b, h, q, k) the reference multiplies the dot product of query row q with key row k of head (b, h) by the
  scale word, and where the causal mask is false it puts the word of -∞ instead; that word is -∞ on the
  extended reals.
-/
import proofs.«167086_j40114994544681_1_alg».proof.Proof.RefMask
import proofs.«167086_j40114994544681_1_alg».proof.Proof.RefQKV

noncomputable section

open scoped BigOperators

namespace Cert.ReferenceIdeal.RefValue

open Idealize.ShloMosaic Idealize.ShloMosaic.ValueIdx Cert.ReferenceIdeal Cert.ReferenceIdeal.Gen

variable (x0 : (⟨S4x2048x1024, .f32⟩ : BufTy).Contents (Elt Ideal)) (x1 : (⟨S3072x1024, .f32⟩ : BufTy).Contents (Elt Ideal))

/-- The query, key and value matrices of head h of batch b. -/
def headQ (b : Fin 4) (h : Fin 16) : Fin 2048 → Fin 64 → EReal :=
  fun t e => Cert.Spec.qkv x0 x1 b t (Cert.Spec.headCol h 0 (by omega) e)
def headK (b : Fin 4) (h : Fin 16) : Fin 2048 → Fin 64 → EReal :=
  fun t e => Cert.Spec.qkv x0 x1 b t (Cert.Spec.headCol h 64 (by omega) e)
def headV (b : Fin 4) (h : Fin 16) : Fin 2048 → Fin 64 → EReal :=
  fun t e => Cert.Spec.qkv x0 x1 b t (Cert.Spec.headCol h 128 (by omega) e)

/-- The word 0xFF800000 is -∞. -/
theorem negInfWord_eq_bot : Ideal.ofBits .f32 0xFF800000#32 = (⊥ : EReal) := by simp [Ideal.ofBits, Ideal.ieee]

/-- The unmasked dot products at (b, h, q, k). -/
theorem dots_apply (b : Fin 4) (h : Fin 16) (q k : Fin 2048) :
    Read.val_main_v8 (F := Ideal) x0 x1 (ix4 b h q k) = ∑ e : Fin 64, headQ x0 x1 b h q e * headK x0 x1 b h k e := by
  rw [Read.val_main_v8_apply]
  refine Finset.sum_congr rfl fun e _ => ?_
  have el : Read.lidx_main_v8 (ix4 b h q k) e = ix4 b h q e := funext fun a => Fin.ext (by
    match a with
    | ⟨0, _⟩ => rfl
    | ⟨1, _⟩ => rfl
    | ⟨2, _⟩ => rfl
    | ⟨3, _⟩ => rfl)
  have er : Read.ridx_main_v8 (ix4 b h q k) e = ix4 b h k e := funext fun a => Fin.ext (by
    match a with
    | ⟨0, _⟩ => rfl
    | ⟨1, _⟩ => rfl
    | ⟨2, _⟩ => rfl
    | ⟨3, _⟩ => rfl)
  rw [el, er, queries_apply, keys_apply]
  rfl

/-- The masked scores at (b, h, q, k). -/
theorem masked_apply (b : Fin 4) (h : Fin 16) (q k : Fin 2048) :
    Read.val_main_v13 (F := Ideal) x0 x1 (ix4 b h q k)
      = Cert.Spec.masked (headQ x0 x1 b h) (headK x0 x1 b h) q k := by
  have em : Read.idx_main_call1_v1 (ix4 b h q k) = ix2 q k := funext fun a => Fin.ext (by
    match a with
    | ⟨0, _⟩ => rfl
    | ⟨1, _⟩ => rfl)
  rw [Read.val_main_v13_apply, Read.val_main_call1_v1_apply, em, mask_apply, Read.val_main_v10_apply, dots_apply,
    Read.val_main_v9_apply, Read.val_main_cst_apply, Read.val_main_call1_v2_apply, Read.val_main_call1_v0_apply,
    Read.val_main_cst_0_apply]
  unfold Cert.Spec.masked Cert.Spec.score Cert.Spec.scale8
  by_cases hk : k.val ≤ q.val
  · rw [if_pos hk, if_pos hk, select_one]
    rfl
  · rw [if_neg hk, if_neg hk, select_zero]
    exact negInfWord_eq_bot

end Cert.ReferenceIdeal.RefValue

end
-- ==== Proof.RefMax.lean ====
/-
  The row maximum of the reference, read at an index.

  The reference folds the maximum over the key axis of the masked scores, starting from the word of -∞, and
  then joins the result with the same word once more.  A fold of a commutative, associative operation over one
  axis is the fold over that axis's coordinates, so at (b, h, q) this is the row maximum of the masked scores
  of head (b, h), as the specification writes it.
-/
import proofs.«167086_j40114994544681_1_alg».proof.Proof.RefScore
import Idealize.ShloMosaic.PureOps.Reduce
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen

variable (x0 : (⟨S4x2048x1024, .f32⟩ : BufTy).Contents (Elt Ideal)) (x1 : (⟨S3072x1024, .f32⟩ : BufTy).Contents (Elt Ideal))

/-- The reduced index (b, h, q) with key k put back on the last axis is (b, h, q, k). -/
theorem lift_row (hr : S4x16x2048x2048.Reduces [3] S4x16x2048) (b : Fin 4) (h : Fin 16) (q : Fin 2048)
    (k : Fin (S4x16x2048x2048.size 3)) : hr.lift (ix3 b h q) k = ix4 b h q (⟨k.val, k.isLt⟩ : Fin 2048) := by
  funext c; apply Fin.ext
  fin_cases c <;> rfl

/-- The row maximum at (b, h, q). -/
theorem rowMax_apply (b : Fin 4) (h : Fin 16) (q : Fin 2048) :
    Read.val_main_v16 (F := Ideal) x0 x1 (ix3 b h q)
      = Cert.Spec.rowMax (headQ x0 x1 b h) (headK x0 x1 b h) q := by
  have hr : S4x16x2048x2048.Reduces [3] S4x16x2048 := by decide
  rw [Read.val_main_v16_apply, Read.val_main_v15_apply, Read.val_main_cst_2_apply]
  unfold Read.val_main_v14
  rw [Host.reduce_eq_fold_single (α := Ideal .f32) (s := S4x16x2048x2048) (t := S4x16x2048) (a := 3) (u := S_)
    (FloatOps.maximumf (F := Ideal) (φ := .f32)) (Read.val_main_v13 (F := Ideal) x0 x1) (Read.val_main_cst_1 (F := Ideal))
    reducesTo_S4x16x2048x2048_S4x16x2048_d3 hr h_S_ (ix3 b h q)]
  unfold Cert.Spec.rowMax Cert.Spec.negInf
  have hf : (Read.val_main_v13 (F := Ideal) x0 x1 ∘ hr.lift (ix3 b h q))
      = fun k : Fin 2048 => Cert.Spec.masked (headQ x0 x1 b h) (headK x0 x1 b h) q k :=
    funext fun k => (congrArg (Read.val_main_v13 (F := Ideal) x0 x1) (lift_row hr b h q k)).trans
      (masked_apply x0 x1 b h q ⟨k.val, k.isLt⟩)
  exact congrArg (fun f => max (Ideal.ofBits .f32 0xFF800000#32)
    (Finset.fold max (Ideal.ofBits .f32 0xFF800000#32) f (Finset.univ : Finset (Fin 2048)))) hf

end Cert.ReferenceIdeal.RefValue

end
-- ==== Proof.RefHead.lean ====
/-
  One head of the reference, read at an index: the shifted exponentials, the row's normaliser, the softmax
  weights and the weighted sum of the value rows.  Each stage reads its operands at the same (b, h, q, k), or
  at (b, h, q) through two size-one broadcasts, so each is the specification's function of the same name of
  the head's three matrices.
-/
import proofs.«167086_j40114994544681_1_alg».proof.Proof.RefMax

noncomputable section

open scoped BigOperators

namespace Cert.ReferenceIdeal.RefValue

open Idealize.ShloMosaic Idealize.ShloMosaic.ValueIdx Cert.ReferenceIdeal Cert.ReferenceIdeal.Gen

variable (x0 : (⟨S4x2048x1024, .f32⟩ : BufTy).Contents (Elt Ideal)) (x1 : (⟨S3072x1024, .f32⟩ : BufTy).Contents (Elt Ideal))

/-- The shifted exponential at (b, h, q, k). -/
theorem expo_apply (b : Fin 4) (h : Fin 16) (q k : Fin 2048) :
    Read.val_main_v20 (F := Ideal) x0 x1 (ix4 b h q k)
      = Cert.Spec.expo (headQ x0 x1 b h) (headK x0 x1 b h) q k := by
  have e18 : Read.idx_main_v17 (Read.idx_main_v18 (ix4 b h q k)) = ix3 b h q := funext fun a => Fin.ext (by
    match a with
    | ⟨0, _⟩ => rfl
    | ⟨1, _⟩ => rfl
    | ⟨2, _⟩ => rfl)
  rw [Read.val_main_v20_apply, Read.val_main_v19_apply, masked_apply, Read.val_main_v18_apply, Read.val_main_v17_apply,
    e18, rowMax_apply]
  rfl

/-- The row's normaliser at (b, h, q): the sum starts from the zero word. -/
theorem denom_apply (b : Fin 4) (h : Fin 16) (q : Fin 2048) :
    Read.val_main_v21 (F := Ideal) x0 x1 (ix3 b h q)
      = Cert.Spec.denom (headQ x0 x1 b h) (headK x0 x1 b h) q := by
  rw [Read.val_main_v21_apply, Read.val_main_cst_3_apply, Ideal.ofBits_def, Ideal.ofBits_zero_f32, zero_add]
  unfold Cert.Spec.denom
  refine Finset.sum_congr rfl fun k _ => ?_
  have e : Read.idx_main_v21 (ix3 b h q) k = ix4 b h q k := funext fun a => Fin.ext (by
    match a with
    | ⟨0, _⟩ => rfl
    | ⟨1, _⟩ => rfl
    | ⟨2, _⟩ => rfl
    | ⟨3, _⟩ => rfl)
  rw [e, expo_apply]

/-- The softmax weight at (b, h, q, k). -/
theorem prob_apply (b : Fin 4) (h : Fin 16) (q k : Fin 2048) :
    Read.val_main_v24 (F := Ideal) x0 x1 (ix4 b h q k)
      = Cert.Spec.prob (headQ x0 x1 b h) (headK x0 x1 b h) q k := by
  have e23 : Read.idx_main_v22 (Read.idx_main_v23 (ix4 b h q k)) = ix3 b h q := funext fun a => Fin.ext (by
    match a with
    | ⟨0, _⟩ => rfl
    | ⟨1, _⟩ => rfl
    | ⟨2, _⟩ => rfl)
  rw [Read.val_main_v24_apply, expo_apply, Read.val_main_v23_apply, Read.val_main_v22_apply, e23, denom_apply]
  rfl

/-- The attended head at (b, h, q, e). -/
theorem attn_apply (b : Fin 4) (h : Fin 16) (q : Fin 2048) (e : Fin 64) :
    Read.val_main_v25 (F := Ideal) x0 x1 (ix4 b h q e) = Cert.Spec.attn x0 x1 b h q e := by
  rw [Read.val_main_v25_apply]
  unfold Cert.Spec.attn Cert.Spec.headAttn
  refine Finset.sum_congr rfl fun k _ => ?_
  have el : Read.lidx_main_v25 (ix4 b h q e) k = ix4 b h q k := funext fun a => Fin.ext (by
    match a with
    | ⟨0, _⟩ => rfl
    | ⟨1, _⟩ => rfl
    | ⟨2, _⟩ => rfl
    | ⟨3, _⟩ => rfl)
  have er : Read.ridx_main_v25 (ix4 b h q e) k = ix4 b h k e := funext fun a => Fin.ext (by
    match a with
    | ⟨0, _⟩ => rfl
    | ⟨1, _⟩ => rfl
    | ⟨2, _⟩ => rfl
    | ⟨3, _⟩ => rfl)
  rw [el, er, prob_apply, values_apply]
  rfl

end Cert.ReferenceIdeal.RefValue

end
-- ==== Proof.RefValue.lean ====
/-
  The reference computes the specification.

  After the heads, the reference exchanges the head and position axes back and re-reads [4, 2048, 16, 64] as
  [4, 2048, 1024]: column c holds head c / 64 at lane c mod 64.  The output projection is one more sum over the
  1024 columns, and the bias is broadcast over batch and position.
-/
import proofs.«167086_j40114994544681_1_alg».proof.Proof.Gen.ReferenceIdeal.Run
import proofs.«167086_j40114994544681_1_alg».proof.Proof.Gen.ReferenceIdeal.Read
import proofs.«167086_j40114994544681_1_alg».proof.Proof.Spec
import proofs.«167086_j40114994544681_1_alg».proof.Proof.RefHead

noncomputable section

open scoped BigOperators

namespace Cert.ReferenceIdeal.RefValue

open Idealize.ShloMosaic Idealize.ShloMosaic.ValueIdx Cert.ReferenceIdeal Cert.ReferenceIdeal.Gen

/-- The merged heads at (b, t, c). -/
theorem merged_apply (x0 : (⟨S4x2048x1024, .f32⟩ : BufTy).Contents (Elt Ideal)) (x1 : (⟨S3072x1024, .f32⟩ : BufTy).Contents (Elt Ideal))
    (b : Fin 4) (t : Fin 2048) (c : Fin 1024) :
    Read.val_main_v27 (F := Ideal) x0 x1 (ix3 b t c) = Cert.Spec.merged x0 x1 b t c := by
  have hb := b.isLt; have ht := t.isLt; have hc := c.isLt
  have e27 : Read.idx_main_v26 (Read.idx_main_v27 (ix3 b t c)) = ix4 b (Cert.Spec.colHead c) t (Cert.Spec.colLane c) :=
    funext fun a => Fin.ext (by
      match a with
      | ⟨0, _⟩ => show ((b.val * 2048 + t.val) * 1024 + c.val) / 2097152 = b.val; omega
      | ⟨1, _⟩ => show ((b.val * 2048 + t.val) * 1024 + c.val) / 64 % 16 = c.val / 64; omega
      | ⟨2, _⟩ => show ((b.val * 2048 + t.val) * 1024 + c.val) / 1024 % 2048 = t.val; omega
      | ⟨3, _⟩ => show ((b.val * 2048 + t.val) * 1024 + c.val) % 64 = c.val % 64; omega)
  rw [Read.val_main_v27_apply, Read.val_main_v26_apply, e27, attn_apply]
  rfl

/-- The reference's result is the specification's layer, as one array function of the four arguments. -/
theorem ref_value (x0 : (⟨S4x2048x1024, .f32⟩ : BufTy).Contents (Elt Ideal)) (x1 : (⟨S3072x1024, .f32⟩ : BufTy).Contents (Elt Ideal))
    (x2 : (⟨S1024x1024, .f32⟩ : BufTy).Contents (Elt Ideal)) (x3 : (⟨S1024, .f32⟩ : BufTy).Contents (Elt Ideal)) :
    Cert.ReferenceIdeal.Read.val_main_v31 (F := Ideal) x0 x1 x2 x3 = Cert.Spec.G x0 x1 x2 x3 := by
  funext i
  obtain ⟨b, t, d, rfl⟩ : ∃ (b : Fin 4) (t : Fin 2048) (d : Fin 1024), i = ix3 b t d := ⟨i 0, i 1, i 2, eq_ix3 i⟩
  have e3 : Read.idx_main_v29 (Read.idx_main_v30 (ix3 b t d)) = ix1 d := funext fun a => Fin.ext (by
    match a with
    | ⟨0, _⟩ => rfl)
  rw [Cert.Spec.G_apply, Read.val_main_v31_apply, Read.val_main_v28_apply, Read.val_main_v30_apply, Read.val_main_v29_apply, e3]
  unfold Cert.Spec.out
  have es : (∑ c : Fin 1024, Read.val_main_v27 (F := Ideal) x0 x1 (Read.lidx_main_v28 (ix3 b t d) c) * x2 (Read.ridx_main_v28 (ix3 b t d) c))
      = ∑ c : Fin 1024, Cert.Spec.merged x0 x1 b t c * x2 (ix2 d c) := Finset.sum_congr rfl fun c _ => by
    have el : Read.lidx_main_v28 (ix3 b t d) c = ix3 b t c := funext fun a => Fin.ext (by
      match a with
      | ⟨0, _⟩ => rfl
      | ⟨1, _⟩ => rfl
      | ⟨2, _⟩ => rfl)
    have er : Read.ridx_main_v28 (ix3 b t d) c = ix2 d c := funext fun a => Fin.ext (by
      match a with
      | ⟨0, _⟩ => rfl
      | ⟨1, _⟩ => rfl)
    rw [el, er, merged_apply]
  rw [es]
  rfl

end Cert.ReferenceIdeal.RefValue

end
-- ==== Proof.lean ====
/-
  The certificate of a multi-head causal self-attention layer: a kernel program of three matrix kernels — the fused
  query/key/value projection, the attention itself on a 64 × 4 grid of (batch · head, query block), the output
  projection with its bias — against the plain reference, equal over the extended reals.

  Both programs compute one function of the four arguments, `Cert.Spec.G` (Proof/Spec.lean): the projection
  x · Wqkvᵀ, per head the scores q · kᵀ / 8, the causal mask to -∞, the row softmax (maximum from -∞, shifted
  exponential, normalising sum, quotient), the weighted sum of the value rows, the heads laid side by side again,
  and · Wprojᵀ + b. The kernel program differs from the reference only in how it tiles and lays out its arrays, so
  the equality needs no hypothesis on the inputs: every sum is over the same index set on both sides.

  * the reference's result is `G` of its arguments: Proof/RefValue.lean, over the reference's run read one operation
    at a time;
  * the kernel program's result buffer ends at `G` of its arguments: Proof/KRun.lean (the run, with the result named
    at the last boundary's contents) and Proof/KValue.lean (those contents are `G`: the three regions' output
    arrays, Proof/Reg0Value.lean, Reg1Value.lean, Reg2Value.lean, joined by the host operations between them,
    Proof/HostGlue.lean);
  * the three frames: the two kernel programs' from their frame certificates, the reference's from its run;
  * the idealization's one rewrite — the mask's fill value, a large negative float, read as -∞ — is its rule's
    statement.
-/
import proofs.«167086_j40114994544681_1_alg».proof.Defs
import proofs.«167086_j40114994544681_1_alg».proof.Proof.Gen.Kernel
import proofs.«167086_j40114994544681_1_alg».proof.Proof.Gen.KernelIdeal
import proofs.«167086_j40114994544681_1_alg».proof.Proof.Gen.ReferenceIdeal
import proofs.«167086_j40114994544681_1_alg».proof.Proof.Gen.Pre_finite_inputs
import proofs.«167086_j40114994544681_1_alg».proof.Proof.FrameKernel
import proofs.«167086_j40114994544681_1_alg».proof.Proof.KRun
import proofs.«167086_j40114994544681_1_alg».proof.Proof.KValue
import proofs.«167086_j40114994544681_1_alg».proof.Proof.RefValue
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_p : Cert.frame_Kernel := fun m ρ _ => Cert.Kernel.GenP.frame m ρ

/-- So does the idealized program. -/
theorem frame_pi : Cert.frame_KernelIdeal := fun m ρ _ => Cert.KernelIdeal.GenP.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the mask's fill, a large negative float standing in for -∞, is read as -∞. -/
theorem preserves : Cert.preserves_Kernel_KernelIdeal :=
  IdealRules.named_const.statement Cert.KernelIdeal.κ "neg_big" .f32 0xFF333332#32 ⊥ rfl

/-- Over the extended reals, from memories that agree on the four arguments, both programs end with the attention
    layer `Cert.Spec.G` of those arguments in their result buffers. -/
theorem algebraic : Cert.algebraic_KernelIdeal_ReferenceIdeal := by
  intro m ρ m' ρ' _ hagree
  refine ⟨fun c => Cert.Spec.G (Cert.KernelIdeal.KValue.X m c) (Cert.KernelIdeal.KValue.Wq m c) (Cert.KernelIdeal.KValue.Wp m c)
      (Cert.KernelIdeal.KValue.Bp m c), ?_, ?_⟩
  · exact (θ_run Cert.KernelIdeal.defs _ _).mono
      (fun r h c => ⟨(h c).1.trans (Cert.KernelIdeal.KValue.result_eq m ρ c), (h c).2⟩)
      (Cert.KernelIdeal.KRun.run_main (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v31_eq, Cert.ReferenceIdeal.RefValue.ref_value,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
